-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S2x64x64 : Shape := ⟨3, ![2, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S3x64 .f32) (main_arg10 : FVec F S64x64 .f32) (main_arg11 : FVec F S64 .f32) (main_arg12 : FVec F S64x10 .f32) (main_arg13 : FVec F S10 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg12
  let main_cst_18 : FVec F S_ .f32 := constant S_ .f32 0x7F800000#32
  let main_v50 : FVec F S64x10 .f32 := broadcastInDim S64x10 ![] bcast_S_S64x10 main_cst_18
  fn_part3 (F := F) main_arg13 main_v48 main_v49 main_v50

def fn_part1 {F : FTy → Type} [FloatOps F] (main_arg6 : FVec F S3x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x10 .f32) (main_arg13 : FVec F S10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x1600000 32) (main_arg2 : IVec S100000 32) (main_arg3 : FVec F S128x64 .f32) (main_arg4 : FVec F S2x64x64 .f32) (main_arg5 : FVec F S3x64 .f32) (main_arg6 : FVec F S3x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S2x64x64 .f32 := Host.absf main_arg4
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S2x64x64 : Shape := ⟨3, ![2, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S10000x1 : Shape := ⟨2, ![10000, 1]⟩
abbrev S1x64x64 : Shape := ⟨3, ![1, 64, 64]⟩
abbrev S512 : Shape := ⟨1, ![512]⟩
abbrev S512x64 : Shape := ⟨2, ![512, 64]⟩
abbrev S512x1 : Shape := ⟨2, ![512, 1]⟩
abbrev S1x10 : Shape := ⟨2, ![1, 10]⟩
abbrev S512x10 : Shape := ⟨2, ![512, 10]⟩

abbrev nBuf : Space → Nat
  | .hbm => 169
  | .vmem => 60
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S2x64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S100000, .f32⟩
  | 49 => ⟨S100000x1, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S100000x64, .f32⟩
  | 74 => ⟨S1600000x1, .i32⟩
  | 75 => ⟨S100000x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S64, .f32⟩
  | 92 => ⟨S1x64, .f32⟩
  | 93 => ⟨S64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S64, .f32⟩
  | 126 => ⟨S1x64, .f32⟩
  | 127 => ⟨S64, .f32⟩
  | _ => ⟨S100000x128, .f32⟩

abbrev hbmTy0_1 (i : Nat) : BufTy := match i % 128 with
  | 0 => ⟨S100000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S1600000x64, .f32⟩
  | 12 => ⟨S_, .f32⟩
  | 13 => ⟨S100000x64, .f32⟩
  | 14 => ⟨S1600000x1, .i32⟩
  | 15 => ⟨S100000x64, .f32⟩
  | 16 => ⟨S1x64, .f32⟩
  | 17 => ⟨S1x64, .f32⟩
  | 18 => ⟨S1x64, .f32⟩
  | 19 => ⟨S1x64, .f32⟩
  | 20 => ⟨S1x64, .f32⟩
  | 21 => ⟨S100000x64, .f32⟩
  | 22 => ⟨S_, .f32⟩
  | 23 => ⟨S100000, .f32⟩
  | 24 => ⟨S_, .f32⟩
  | 25 => ⟨S512, .f32⟩
  | 26 => ⟨S100000x1, .i32⟩
  | 27 => ⟨S512, .f32⟩
  | 28 => ⟨S_, .f32⟩
  | 29 => ⟨S512x64, .f32⟩
  | 30 => ⟨S100000x1, .i32⟩
  | 31 => ⟨S512x64, .f32⟩
  | 32 => ⟨S_, .f32⟩
  | 33 => ⟨S512, .f32⟩
  | 34 => ⟨S512, .f32⟩
  | 35 => ⟨S512x1, .f32⟩
  | 36 => ⟨S512x64, .f32⟩
  | 37 => ⟨S512x64, .f32⟩
  | 38 => ⟨S1x64, .f32⟩
  | 39 => ⟨S1x10, .f32⟩
  | 40 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x1, .f32⟩
  | .local _ .vmem, ⟨28, _⟩ => ⟨S10000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x1, .f32⟩
  | .local _ .vmem, ⟨46, _⟩ => ⟨S10000x1, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S512x64, .f32⟩
  | .local _ .vmem, ⟨55, _⟩ => ⟨S64x64, .f32⟩
  | .local _ .vmem, ⟨56, _⟩ => ⟨S1x64, .f32⟩
  | .local _ .vmem, ⟨57, _⟩ => ⟨S64x10, .f32⟩
  | .local _ .vmem, ⟨58, _⟩ => ⟨S1x10, .f32⟩
  | .local _ .vmem, ⟨59, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_8 : Ref sig .tc := ⟨.hbm, 95, rfl⟩
abbrev main_v71 : Ref sig .tc := ⟨.hbm, 96, rfl⟩
abbrev main_v72 : Ref sig .tc := ⟨.hbm, 97, rfl⟩
abbrev main_c_9 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_10 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_11 : Ref sig .tc := ⟨.hbm, 129, rfl⟩
abbrev main_v102 : Ref sig .tc := ⟨.hbm, 130, rfl⟩
abbrev main_v103 : Ref sig .tc := ⟨.hbm, 131, rfl⟩
abbrev main_c_12 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_13 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_14 : Ref sig .tc := ⟨.hbm, 150, rfl⟩
abbrev main_v120 : Ref sig .tc := ⟨.hbm, 151, rfl⟩
abbrev main_cst_15 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_16 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_17 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S10000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S3x64_S1x64_0_0 : S3x64.Slices ![0, 0] S1x64
  shapeCasts_S1x64_S64 : S1x64.ShapeCasts S64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x64x64_S1x64x64_0_0_0 : S2x64x64.Slices ![0, 0, 0] S1x64x64
  shapeCasts_S1x64x64_S64x64 : S1x64x64.ShapeCasts S64x64
  slices_S3x64_S1x64_1_0 : S3x64.Slices ![1, 0] S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x64x64_S1x64x64_1_0_0 : S2x64x64.Slices ![1, 0, 0] S1x64x64
  slices_S3x64_S1x64_2_0 : S3x64.Slices ![2, 0] S1x64
  bcast_S_S512 : S_.BroadcastsInDim S512 (![] : Fin 0 → Fin S512.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S512_S100000x1_S100000_n_0_0_1_wf : ScatterDims.WF S512 S100000x1 S100000 [] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x64.size a ≤ S100000x64.size a
  hwx3_8 : ∀ i : grid3.Coords, EltTy.bits .f32 = 32 ∨ (Rect.block (s := S100000x64) S10000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S10000x64.size a ≤ S100000x64.size a
  hwx5_8 : ∀ i : grid5.Coords, EltTy.bits .f32 = 32 ∨ (Rect.block (s := S100000x64) S10000x64.size (cc5_transform_8 i) (hinb5_8 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v87) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v88) S10000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v88) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v113) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v114) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v115) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v116) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v117) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v118) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v119) S10000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v131) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v132) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134) S512x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S2x64x64 : Shape := ⟨3, ![2, 64, 64]⟩
abbrev S3x64 : Shape := ⟨2, ![3, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S100000x64 : Shape := ⟨2, ![100000, 64]⟩
abbrev S1600000x64 : Shape := ⟨2, ![1600000, 64]⟩
abbrev S100000x1 : Shape := ⟨2, ![100000, 1]⟩
abbrev S1x64x64 : Shape := ⟨3, ![1, 64, 64]⟩
abbrev S512 : Shape := ⟨1, ![512]⟩
abbrev S512x64 : Shape := ⟨2, ![512, 64]⟩
abbrev S512x1 : Shape := ⟨2, ![512, 1]⟩
abbrev S512x10 : Shape := ⟨2, ![512, 10]⟩
abbrev S1x10 : Shape := ⟨2, ![1, 10]⟩

abbrev nBuf : Space → Nat
  | .hbm => 238
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S2x64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x10, .f32⟩
  | 13 => ⟨S10, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S100000, .f32⟩
  | 48 => ⟨S1x64, .f32⟩
  | 49 => ⟨S64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x1, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S1x64, .f32⟩
  | 85 => ⟨S64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S1x64x64, .f32⟩
  | 102 => ⟨S64x64, .f32⟩
  | 103 => ⟨S1x64, .f32⟩
  | 104 => ⟨S64, .f32⟩
  | 105 => ⟨S100000x64, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1600000x1, .f32⟩
  | 116 => ⟨S1600000x64, .f32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000x1, .f32⟩
  | 123 => ⟨S100000x64, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S1x64, .f32⟩
  | 12 => ⟨S64, .f32⟩
  | 13 => ⟨S_, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S100000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1600000x1, .f32⟩
  | 43 => ⟨S1600000x64, .f32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x1, .f32⟩
  | 50 => ⟨S100000x64, .f32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S1x64, .f32⟩
  | 57 => ⟨S64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S64, .f32⟩
  | 68 => ⟨S_, .f32⟩
  | 69 => ⟨S64, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .f32⟩
  | 84 => ⟨S100000, .f32⟩
  | 85 => ⟨S_, .f32⟩
  | 86 => ⟨S512, .f32⟩
  | 87 => ⟨S100000x1, .i32⟩
  | 88 => ⟨S512, .f32⟩
  | 89 => ⟨S_, .f32⟩
  | 90 => ⟨S512x64, .f32⟩
  | 91 => ⟨S100000x1, .i32⟩
  | 92 => ⟨S512x64, .f32⟩
  | 93 => ⟨S_, .f32⟩
  | 94 => ⟨S512, .f32⟩
  | 95 => ⟨S512, .f32⟩
  | 96 => ⟨S512x1, .f32⟩
  | 97 => ⟨S512x64, .f32⟩
  | 98 => ⟨S512x64, .f32⟩
  | 99 => ⟨S512x64, .f32⟩
  | 100 => ⟨S1x64, .f32⟩
  | 101 => ⟨S512x64, .f32⟩
  | 102 => ⟨S512x64, .f32⟩
  | 103 => ⟨S_, .f32⟩
  | 104 => ⟨S512x64, .f32⟩
  | 105 => ⟨S512x64, .f32⟩
  | 106 => ⟨S512x10, .f32⟩
  | 107 => ⟨S1x10, .f32⟩
  | 108 => ⟨S512x10, .f32⟩
  | 109 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call0_cst : Ref sig .tc := ⟨.hbm, 98, rfl⟩
abbrev main_call0_v0 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_9 : Ref sig .tc := ⟨.hbm, 106, rfl⟩
abbrev main_v79 : Ref sig .tc := ⟨.hbm, 107, rfl⟩
abbrev main_v80 : Ref sig .tc := ⟨.hbm, 108, rfl⟩
abbrev main_c_10 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_11 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_12 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_call1_cst : Ref sig .tc := ⟨.hbm, 153, rfl⟩
abbrev main_call1_v0 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_c_13 : Ref sig .tc := ⟨.hbm, 161, rfl⟩
abbrev main_v128 : Ref sig .tc := ⟨.hbm, 162, rfl⟩
abbrev main_v129 : Ref sig .tc := ⟨.hbm, 163, rfl⟩
abbrev main_c_14 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_15 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_16 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_call2_cst : Ref sig .tc := ⟨.hbm, 208, rfl⟩
abbrev main_call2_v0 : Ref sig .tc := ⟨.hbm, 209, rfl⟩
abbrev main_v171 : Ref sig .tc := ⟨.hbm, 210, rfl⟩
abbrev main_cst_17 : Ref sig .tc := ⟨.hbm, 211, rfl⟩
abbrev main_v172 : Ref sig .tc := ⟨.hbm, 212, rfl⟩
abbrev main_cst_18 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_19 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_cst_20 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_call3_cst : Ref sig .tc := ⟨.hbm, 231, rfl⟩
abbrev main_call3_v0 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x64_S1x64_0_0 : S3x64.Slices ![0, 0] S1x64
  shapeCasts_S1x64_S64 : S1x64.ShapeCasts S64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S2x64x64_S1x64x64_0_0_0 : S2x64x64.Slices ![0, 0, 0] S1x64x64
  shapeCasts_S1x64x64_S64x64 : S1x64x64.ShapeCasts S64x64
  slices_S3x64_S1x64_1_0 : S3x64.Slices ![1, 0] S1x64
  slices_S2x64x64_S1x64x64_1_0_0 : S2x64x64.Slices ![1, 0, 0] S1x64x64
  slices_S3x64_S1x64_2_0 : S3x64.Slices ![2, 0] S1x64
  bcast_S_S512 : S_.BroadcastsInDim S512 (![] : Fin 0 → Fin S512.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512_S100000x1_S100000_n_0_0_1_wf : ScatterDims.WF S512 S100000x1 S100000 [] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  dot_S512x64_S64x10_S512x10_1_0_0_1_n_n_wf : DotDims.WF S512x64 S64x10 S512x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Mlp6.lean ====
/-
  Region 6 of the idealized kernel: the two-layer classifier head, one grid point over whole arrays. From the pooled
  features x [512, 64], the weights w1 [64, 64], w2 [64, 10] and the bias rows b1 [1, 64], b2 [1, 10] the body writes
      out[p, q] = (Σ_j max ((Σ_k x[p, k] · w1[k, j]) + b1[0, j], 0) · w2[j, q]) + b2[0, q].
  At the extended reals the bf16 casts are the identity and each matrix unit, started from a zero accumulator, is the
  plain sum over the contracted axis.
-/
import proofs.«129519_j25572235280972_1_alg».proof.Proof.Gen.KernelIdeal.Frame
import proofs.«129519_j25572235280972_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mlp6

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

theorem zero_off : (![0, 0] : Fin 2 → Nat) = fun _ => 0 := funext fun a => by fin_cases a <;> rfl

/-- The hidden layer at (p, j). -/
def hidden (x : S512x64.Idx → EReal) (w1 : S64x64.Idx → EReal) (b1 : S1x64.Idx → EReal) (p : Fin 512) (j : Fin 64) : EReal :=
  max ((∑ k : Fin 64, x (ix2 p k) * w1 (ix2 k j)) + b1 (ix2 (0 : Fin 1) j)) (Ideal.ofBits .f32 0x00000000#32)

/-- The head over whole arrays, index by index. -/
def arr (x : S512x64.Idx → EReal) (w1 : S64x64.Idx → EReal) (b1 : S1x64.Idx → EReal) (w2 : S64x10.Idx → EReal)
    (b2 : S1x10.Idx → EReal) : S512x10.Idx → EReal :=
  fun i => (∑ j : Fin 64, hidden x w1 b1 (i 0) j * w2 (ix2 j (n1 := 10) (i 1))) + b2 (ix2 (0 : Fin 1) (n1 := 10) (i 1))

/-- The hidden layer depends only on row p of x, column j of w1 and entry j of b1. -/
theorem hidden_congr {x x' : S512x64.Idx → EReal} {w1 w1' : S64x64.Idx → EReal} {b1 b1' : S1x64.Idx → EReal} {p p' : Fin 512} (j : Fin 64)
    (hx : ∀ k : Fin 64, x (ix2 p k) = x' (ix2 p' k)) (hw : ∀ k : Fin 64, w1 (ix2 k j) = w1' (ix2 k j))
    (hb : b1 (ix2 (0 : Fin 1) j) = b1' (ix2 (0 : Fin 1) j)) : hidden x w1 b1 p j = hidden x' w1' b1' p' j := by
  unfold hidden
  rw [hb]
  congr 2
  exact Finset.sum_congr rfl fun k _ => by rw [hx k, hw k]

theorem dims1 : dot_S512x64_S64x64_S512x64_1_0_0_1_n_n = DotDims.plain 512 64 64 := rfl
theorem dims2 : dot_S512x64_S64x10_S512x10_1_0_0_1_n_n = DotDims.plain 512 64 10 := rfl

/-- The body's payload at (p, q). -/
theorem pay_apply (x : Vec Ideal S512x64 .f32) (w1 : Vec Ideal S64x64 .f32) (b1 : Vec Ideal S1x64 .f32)
    (w2 : Vec Ideal S64x10 .f32) (b2 : Vec Ideal S1x10 .f32) (p : Fin 512) (q : Fin 10) :
    k6_pay1 x w1 b1 w2 b2 (ix2 p q)
      = (∑ j : Fin 64, hidden x w1 b1 p j * w2 (ix2 j q)) + b2 (ix2 (0 : Fin 1) q) := by
  unfold k6_pay1
  simp only [shapeCast_self]
  rw [addf_apply, broadcastTo_1b_ab_apply, dims1, dims2]
  congr 1
  refine (Cert.Bridge.LibMatmul.matmul_zero_apply none _ _ p q).trans ?_
  refine Finset.sum_congr rfl fun j _ => ?_
  congr 1
  unfold hidden
  simp only [truncf_apply, maximumf_apply, addf_apply, broadcast_apply, broadcastTo_1b_ab_apply]
  exact congrArg₂ max (congrArg₂ (fun a b : EReal => a + b) (Cert.Bridge.LibMatmul.matmul_zero_apply none x w1 p j) rfl) rfl

/-- The one grid point stages every window whole. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

set_option maxHeartbeats 4000000 in
/-- What the point writes back is the head over the arrays as the region finds them. -/
theorem flushed_eq (c : Dev nD) (t : Fin cfg6.N) :
    (dat6 V c).flushed 5 t = ((cfg6.win 5).blk t).view.read (Elt Ideal)
      (arr (V c main_v131) (V c main_arg10) (V c main_v132) (V c main_arg12) (V c main_v133)) := by
  show (cfg6.win 5).cut (grid6.coords t) ((dat6 V c).after 5 t) = _
  rw [after6_5]
  unfold out6_5
  rw [View.canon_unit_zero zero_off]
  simp only [View.ld_unit_zero (S := S512x64) zero_off, View.ld_unit_zero (S := S64x64) zero_off, View.ld_unit_zero (S := S1x64) zero_off,
    View.ld_unit_zero (S := S64x10) zero_off, View.ld_unit_zero (S := S1x10) zero_off]
  obtain ⟨e00, e01, e10, e11, e20, e21, e30, e31, e40, e41, e50, e51⟩ := idx_facts t
  funext j
  obtain ⟨p, q, rfl⟩ : ∃ (p : Fin 512) (q : Fin 10), j = ix2 p q := ⟨j 0, j 1, eq_ix2 j⟩
  show k6_pay1 (iblk6 V c 0 t) (iblk6 V c 1 t) (iblk6 V c 2 t) (iblk6 V c 3 t) (iblk6 V c 4 t) (ix2 p q)
    = arr (V c main_v131) (V c main_arg10) (V c main_v132) (V c main_arg12) (V c main_v133) (((cfg6.win 5).blk t).view.emb (ix2 p q))
  rw [pay_apply]
  have hx : ∀ k : Fin 64, ((cfg6.win 0).blk t).view.emb (ix2 p k) = ix2 (n0 := 512) ((((cfg6.win 5).blk t).view.emb (ix2 p q)) 0) k := by
    intro k; funext a; apply Fin.ext
    match a with
    | ⟨0, _⟩ => show win6_0.index t (0 : Fin 2) * 512 + 1 * p.val = win6_5.index t (0 : Fin 2) * 512 + 1 * p.val; omega
    | ⟨1, _⟩ => show win6_0.index t (1 : Fin 2) * 64 + 1 * k.val = k.val; omega
  have hw1 : ∀ k j : Fin 64, ((cfg6.win 1).blk t).view.emb (ix2 k j) = ix2 k j := by
    intro k j; funext a; apply Fin.ext
    match a with
    | ⟨0, _⟩ => show win6_1.index t (0 : Fin 2) * 64 + 1 * k.val = k.val; omega
    | ⟨1, _⟩ => show win6_1.index t (1 : Fin 2) * 64 + 1 * j.val = j.val; omega
  have hb1 : ∀ j : Fin 64, ((cfg6.win 2).blk t).view.emb (ix2 (0 : Fin 1) j) = ix2 (0 : Fin 1) j := by
    intro j; funext a; apply Fin.ext
    match a with
    | ⟨0, _⟩ => show win6_2.index t (0 : Fin 2) * 1 + 1 * 0 = 0; omega
    | ⟨1, _⟩ => show win6_2.index t (1 : Fin 2) * 64 + 1 * j.val = j.val; omega
  have hw2 : ∀ j : Fin 64, ((cfg6.win 3).blk t).view.emb (ix2 j q) = ix2 j (n1 := 10) ((((cfg6.win 5).blk t).view.emb (ix2 p q)) 1) := by
    intro j; funext a; apply Fin.ext
    match a with
    | ⟨0, _⟩ => show win6_3.index t (0 : Fin 2) * 64 + 1 * j.val = j.val; omega
    | ⟨1, _⟩ => show win6_3.index t (1 : Fin 2) * 10 + 1 * q.val = win6_5.index t (1 : Fin 2) * 10 + 1 * q.val; omega
  have hb2 : ((cfg6.win 4).blk t).view.emb (ix2 (0 : Fin 1) q) = ix2 (0 : Fin 1) (n1 := 10) ((((cfg6.win 5).blk t).view.emb (ix2 p q)) 1) := by
    funext a; apply Fin.ext
    match a with
    | ⟨0, _⟩ => show win6_4.index t (0 : Fin 2) * 1 + 1 * 0 = 0; omega
    | ⟨1, _⟩ => show win6_4.index t (1 : Fin 2) * 10 + 1 * q.val = win6_5.index t (1 : Fin 2) * 10 + 1 * q.val; omega
  unfold arr
  refine congrArg₂ (fun a b : EReal => a + b) (Finset.sum_congr rfl fun j _ => congrArg₂ (fun a b : EReal => a * b)
    (hidden_congr j (fun k => ?_) (fun k => ?_) ?_) ?_) ?_
  · exact congrArg (V c main_v131) (hx k)
  · exact congrArg (V c main_arg10) (hw1 k j)
  · exact congrArg (V c main_v132) (hb1 j)
  · exact congrArg (V c main_arg12) (hw2 j)
  · exact congrArg (V c main_v133) hb2

/-- The one block is the whole output array. -/
theorem mem_blk (t : Fin cfg6.N) (i : S512x10.Idx) :
    i ∈ ((cfg6.win 5).blk t).view.set ↔ ∀ a : Fin 2, win6_5.index t a * S512x10.size a ≤ (i a).val ∧ (i a).val < win6_5.index t a * S512x10.size a + S512x10.size a := by
  show i ∈ ((View.whole main_v134).slice (win6_5.rect t)).set ↔ _
  rw [View.set_slice_whole, Rect.mem_set_unit]
  exact Iff.rfl

theorem cover (i : S512x10.Idx) :
    ∃ t : Fin cfg6.N, (cfg6.win 5).flush t = true ∧ i ∈ ((cfg6.win 5).blk t).view.set := by
  have hi0 : (i 0).val < 512 := (i 0).isLt
  have hi1 : (i 1).val < 10 := (i 1).isLt
  refine ⟨⟨0, by show 0 < 1; omega⟩, flush6_5 _, ?_⟩
  rw [mem_blk]
  obtain ⟨e00, e01, e10, e11, e20, e21, e30, e31, e40, e41, e50, e51⟩ := idx_facts ⟨0, by show 0 < 1; omega⟩
  intro a
  match a with
  | ⟨0, _⟩ => show win6_5.index _ (0 : Fin 2) * 512 ≤ (i 0).val ∧ (i 0).val < win6_5.index _ (0 : Fin 2) * 512 + 512; rw [e50]; omega
  | ⟨1, _⟩ => show win6_5.index _ (1 : Fin 2) * 10 ≤ (i 1).val ∧ (i 1).val < win6_5.index _ (1 : Fin 2) * 10 + 10; rw [e51]; omega

/-- The output array after the region is the head over the input arrays as the region found them. -/
theorem value (c : Dev nD) : (dat6 V c).arrAt 5 cfg6.N
    = arr (V c main_v131) (V c main_arg10) (V c main_v132) (V c main_arg12) (V c main_v133) :=
  (dat6 V c).arrAt_eq_of_cover 5 _ (fun t _ => flushed_eq V c t) cover

end Cert.KernelIdeal.Mlp6

end
-- ==== Proof.KeepArgsB.lean ====
/-
  The argument arrays at the later boundaries (the third layer's parameters, the pooling indices and the classifier's
  weights): each boundary's contents at an argument are the launch contents, since nothing writes an argument.
-/
import proofs.«129519_j25572235280972_1_alg».proof.Proof.Gen.KernelIdeal.Frame
import Idealize.ShloMosaic.PureOps.Ideal
import Idealize.ShloMosaic.Lib.StableHlo.Run

set_option maxRecDepth 16384

noncomputable section

namespace Cert.KernelIdeal.KeepArgsB

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg4_8_0 (c : Dev nD) : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := by show StableHlo.after hostOps3 (W6 m ρ c) (Proc.devRef .tc main_arg4) = _; after_results_simp
    _ = W5 m ρ c (Proc.devRef .tc main_arg4) := W6_of_ne m ρ c main_arg4 (by decide)
    _ = W4 m ρ c (Proc.devRef .tc main_arg4) := by show StableHlo.after hostOps2 (W4 m ρ c) (Proc.devRef .tc main_arg4) = _; after_results_simp
    _ = W3 m ρ c (Proc.devRef .tc main_arg4) := W4_of_ne m ρ c main_arg4 (by decide)
    _ = W2 m ρ c (Proc.devRef .tc main_arg4) := by show StableHlo.after hostOps1 (W2 m ρ c) (Proc.devRef .tc main_arg4) = _; after_results_simp
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = _; after_results_simp
theorem arg4_at_8 (c : Dev nD) : W8 m ρ c (Proc.devRef .tc main_arg4) = m ((c : Thread nD τ).loc main_arg4) :=
  (keep_arg4_8_0 m ρ c).trans rfl
theorem keep_arg5_8_0 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by show StableHlo.after hostOps3 (W6 m ρ c) (Proc.devRef .tc main_arg5) = _; after_results_simp
    _ = W5 m ρ c (Proc.devRef .tc main_arg5) := W6_of_ne m ρ c main_arg5 (by decide)
    _ = W4 m ρ c (Proc.devRef .tc main_arg5) := by show StableHlo.after hostOps2 (W4 m ρ c) (Proc.devRef .tc main_arg5) = _; after_results_simp
    _ = W3 m ρ c (Proc.devRef .tc main_arg5) := W4_of_ne m ρ c main_arg5 (by decide)
    _ = W2 m ρ c (Proc.devRef .tc main_arg5) := by show StableHlo.after hostOps1 (W2 m ρ c) (Proc.devRef .tc main_arg5) = _; after_results_simp
    _ = W1 m ρ c (Proc.devRef .tc main_arg5) := W2_of_ne m ρ c main_arg5 (by decide)
    _ = W0 m ρ c (Proc.devRef .tc main_arg5) := by show StableHlo.after hostOps0 (W0 m ρ c) (Proc.devRef .tc main_arg5) = _; after_results_simp
theorem arg5_at_8 (c : Dev nD) : W8 m ρ c (Proc.devRef .tc main_arg5) = m ((c : Thread nD τ).loc main_arg5) :=
  (keep_arg5_8_0 m ρ c).trans rfl
theorem keep_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := by show StableHlo.after hostOps3 (W6 m ρ c) (Proc.devRef .tc main_arg6) = _; after_results_simp
    _ = W5 m ρ c (Proc.devRef .tc main_arg6) := W6_of_ne m ρ c main_arg6 (by decide)
    _ = W4 m ρ c (Proc.devRef .tc main_arg6) := by show StableHlo.after hostOps2 (W4 m ρ c) (Proc.devRef .tc main_arg6) = _; after_results_simp
    _ = W3 m ρ c (Proc.devRef .tc main_arg6) := W4_of_ne m ρ c main_arg6 (by decide)
    _ = W2 m ρ c (Proc.devRef .tc main_arg6) := by show StableHlo.after hostOps1 (W2 m ρ c) (Proc.devRef .tc main_arg6) = _; after_results_simp
    _ = W1 m ρ c (Proc.devRef .tc main_arg6) := W2_of_ne m ρ c main_arg6 (by decide)
    _ = W0 m ρ c (Proc.devRef .tc main_arg6) := by show StableHlo.after hostOps0 (W0 m ρ c) (Proc.devRef .tc main_arg6) = _; after_results_simp
theorem arg6_at_8 (c : Dev nD) : W8 m ρ c (Proc.devRef .tc main_arg6) = m ((c : Thread nD τ).loc main_arg6) :=
  (keep_arg6_8_0 m ρ c).trans rfl
theorem keep_arg7_8_0 (c : Dev nD) : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by show StableHlo.after hostOps3 (W6 m ρ c) (Proc.devRef .tc main_arg7) = _; after_results_simp
    _ = W5 m ρ c (Proc.devRef .tc main_arg7) := W6_of_ne m ρ c main_arg7 (by decide)
    _ = W4 m ρ c (Proc.devRef .tc main_arg7) := by show StableHlo.after hostOps2 (W4 m ρ c) (Proc.devRef .tc main_arg7) = _; after_results_simp
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; after_results_simp
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; after_results_simp
theorem arg7_at_8 (c : Dev nD) : W8 m ρ c (Proc.devRef .tc main_arg7) = m ((c : Thread nD τ).loc main_arg7) :=
  (keep_arg7_8_0 m ρ c).trans rfl
theorem keep_arg8_8_0 (c : Dev nD) : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := by show StableHlo.after hostOps3 (W6 m ρ c) (Proc.devRef .tc main_arg8) = _; after_results_simp
    _ = W5 m ρ c (Proc.devRef .tc main_arg8) := W6_of_ne m ρ c main_arg8 (by decide)
    _ = W4 m ρ c (Proc.devRef .tc main_arg8) := by show StableHlo.after hostOps2 (W4 m ρ c) (Proc.devRef .tc main_arg8) = _; after_results_simp
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results_simp
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; after_results_simp
theorem arg8_at_8 (c : Dev nD) : W8 m ρ c (Proc.devRef .tc main_arg8) = m ((c : Thread nD τ).loc main_arg8) :=
  (keep_arg8_8_0 m ρ c).trans rfl
theorem keep_arg9_8_0 (c : Dev nD) : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := by show StableHlo.after hostOps3 (W6 m ρ c) (Proc.devRef .tc main_arg9) = _; after_results_simp
    _ = W5 m ρ c (Proc.devRef .tc main_arg9) := W6_of_ne m ρ c main_arg9 (by decide)
    _ = W4 m ρ c (Proc.devRef .tc main_arg9) := by show StableHlo.after hostOps2 (W4 m ρ c) (Proc.devRef .tc main_arg9) = _; after_results_simp
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results_simp
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; after_results_simp
theorem arg9_at_8 (c : Dev nD) : W8 m ρ c (Proc.devRef .tc main_arg9) = m ((c : Thread nD τ).loc main_arg9) :=
  (keep_arg9_8_0 m ρ c).trans rfl
theorem keep_arg2_12_0 (c : Dev nD) : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := by show StableHlo.after hostOps5 (W10 m ρ c) (Proc.devRef .tc main_arg2) = _; after_results_simp
    _ = W9 m ρ c (Proc.devRef .tc main_arg2) := W10_of_ne m ρ c main_arg2 (by decide)
    _ = W8 m ρ c (Proc.devRef .tc main_arg2) := by show StableHlo.after hostOps4 (W8 m ρ c) (Proc.devRef .tc main_arg2) = _; after_results_simp
    _ = W7 m ρ c (Proc.devRef .tc main_arg2) := W8_of_ne m ρ c main_arg2 (by decide)
    _ = W6 m ρ c (Proc.devRef .tc main_arg2) := by show StableHlo.after hostOps3 (W6 m ρ c) (Proc.devRef .tc main_arg2) = _; after_results_simp
    _ = W5 m ρ c (Proc.devRef .tc main_arg2) := W6_of_ne m ρ c main_arg2 (by decide)
    _ = W4 m ρ c (Proc.devRef .tc main_arg2) := by show StableHlo.after hostOps2 (W4 m ρ c) (Proc.devRef .tc main_arg2) = _; after_results_simp
    _ = W3 m ρ c (Proc.devRef .tc main_arg2) := W4_of_ne m ρ c main_arg2 (by decide)
    _ = W2 m ρ c (Proc.devRef .tc main_arg2) := by show StableHlo.after hostOps1 (W2 m ρ c) (Proc.devRef .tc main_arg2) = _; after_results_simp
    _ = W1 m ρ c (Proc.devRef .tc main_arg2) := W2_of_ne m ρ c main_arg2 (by decide)
    _ = W0 m ρ c (Proc.devRef .tc main_arg2) := by show StableHlo.after hostOps0 (W0 m ρ c) (Proc.devRef .tc main_arg2) = _; after_results_simp
theorem arg2_at_12 (c : Dev nD) : W12 m ρ c (Proc.devRef .tc main_arg2) = m ((c : Thread nD τ).loc main_arg2) :=
  (keep_arg2_12_0 m ρ c).trans rfl
theorem keep_arg11_12_0 (c : Dev nD) : W12 m ρ c (Proc.devRef .tc main_arg11) = W0 m ρ c (Proc.devRef .tc main_arg11) :=
  calc W12 m ρ c (Proc.devRef .tc main_arg11)
    _ = W11 m ρ c (Proc.devRef .tc main_arg11) := W12_of_ne m ρ c main_arg11 (by decide)
    _ = W10 m ρ c (Proc.devRef .tc main_arg11) := by show StableHlo.after hostOps5 (W10 m ρ c) (Proc.devRef .tc main_arg11) = _; after_results_simp
    _ = W9 m ρ c (Proc.devRef .tc main_arg11) := W10_of_ne m ρ c main_arg11 (by decide)
    _ = W8 m ρ c (Proc.devRef .tc main_arg11) := by show StableHlo.after hostOps4 (W8 m ρ c) (Proc.devRef .tc main_arg11) = _; after_results_simp
    _ = W7 m ρ c (Proc.devRef .tc main_arg11) := W8_of_ne m ρ c main_arg11 (by decide)
    _ = W6 m ρ c (Proc.devRef .tc main_arg11) := by show StableHlo.after hostOps3 (W6 m ρ c) (Proc.devRef .tc main_arg11) = _; after_results_simp
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; after_results_simp
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; after_results_simp
    _ = W1 m ρ c (Proc.devRef .tc main_arg11) := W2_of_ne m ρ c main_arg11 (by decide)
    _ = W0 m ρ c (Proc.devRef .tc main_arg11) := by show StableHlo.after hostOps0 (W0 m ρ c) (Proc.devRef .tc main_arg11) = _; after_results_simp
theorem arg11_at_12 (c : Dev nD) : W12 m ρ c (Proc.devRef .tc main_arg11) = m ((c : Thread nD τ).loc main_arg11) :=
  (keep_arg11_12_0 m ρ c).trans rfl
theorem keep_arg13_12_0 (c : Dev nD) : W12 m ρ c (Proc.devRef .tc main_arg13) = W0 m ρ c (Proc.devRef .tc main_arg13) :=
  calc W12 m ρ c (Proc.devRef .tc main_arg13)
    _ = W11 m ρ c (Proc.devRef .tc main_arg13) := W12_of_ne m ρ c main_arg13 (by decide)
    _ = W10 m ρ c (Proc.devRef .tc main_arg13) := by show StableHlo.after hostOps5 (W10 m ρ c) (Proc.devRef .tc main_arg13) = _; after_results_simp
    _ = W9 m ρ c (Proc.devRef .tc main_arg13) := W10_of_ne m ρ c main_arg13 (by decide)
    _ = W8 m ρ c (Proc.devRef .tc main_arg13) := by show StableHlo.after hostOps4 (W8 m ρ c) (Proc.devRef .tc main_arg13) = _; after_results_simp
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; after_results_simp
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; after_results_simp
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; after_results_simp
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; after_results_simp
theorem arg13_at_12 (c : Dev nD) : W12 m ρ c (Proc.devRef .tc main_arg13) = m ((c : Thread nD τ).loc main_arg13) :=
  (keep_arg13_12_0 m ρ c).trans rfl
theorem keep_arg10_13_0 (c : Dev nD) : W13 m ρ c (Proc.devRef .tc main_arg10) = W0 m ρ c (Proc.devRef .tc main_arg10) :=
  calc W13 m ρ c (Proc.devRef .tc main_arg10)
    _ = W12 m ρ c (Proc.devRef .tc main_arg10) := by show StableHlo.after hostOps6 (W12 m ρ c) (Proc.devRef .tc main_arg10) = _; after_results_simp
    _ = W11 m ρ c (Proc.devRef .tc main_arg10) := W12_of_ne m ρ c main_arg10 (by decide)
    _ = W10 m ρ c (Proc.devRef .tc main_arg10) := by show StableHlo.after hostOps5 (W10 m ρ c) (Proc.devRef .tc main_arg10) = _; after_results_simp
    _ = W9 m ρ c (Proc.devRef .tc main_arg10) := W10_of_ne m ρ c main_arg10 (by decide)
    _ = W8 m ρ c (Proc.devRef .tc main_arg10) := by show StableHlo.after hostOps4 (W8 m ρ c) (Proc.devRef .tc main_arg10) = _; after_results_simp
    _ = W7 m ρ c (Proc.devRef .tc main_arg10) := W8_of_ne m ρ c main_arg10 (by decide)
    _ = W6 m ρ c (Proc.devRef .tc main_arg10) := by show StableHlo.after hostOps3 (W6 m ρ c) (Proc.devRef .tc main_arg10) = _; after_results_simp
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; after_results_simp
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; after_results_simp
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; after_results_simp
theorem arg10_at_13 (c : Dev nD) : W13 m ρ c (Proc.devRef .tc main_arg10) = m ((c : Thread nD τ).loc main_arg10) :=
  (keep_arg10_13_0 m ρ c).trans rfl
theorem keep_arg12_13_0 (c : Dev nD) : W13 m ρ c (Proc.devRef .tc main_arg12) = W0 m ρ c (Proc.devRef .tc main_arg12) :=
  calc W13 m ρ c (Proc.devRef .tc main_arg12)
    _ = W12 m ρ c (Proc.devRef .tc main_arg12) := by show StableHlo.after hostOps6 (W12 m ρ c) (Proc.devRef .tc main_arg12) = _; after_results_simp
    _ = W11 m ρ c (Proc.devRef .tc main_arg12) := W12_of_ne m ρ c main_arg12 (by decide)
    _ = W10 m ρ c (Proc.devRef .tc main_arg12) := by show StableHlo.after hostOps5 (W10 m ρ c) (Proc.devRef .tc main_arg12) = _; after_results_simp
    _ = W9 m ρ c (Proc.devRef .tc main_arg12) := W10_of_ne m ρ c main_arg12 (by decide)
    _ = W8 m ρ c (Proc.devRef .tc main_arg12) := by show StableHlo.after hostOps4 (W8 m ρ c) (Proc.devRef .tc main_arg12) = _; after_results_simp
    _ = W7 m ρ c (Proc.devRef .tc main_arg12) := W8_of_ne m ρ c main_arg12 (by decide)
    _ = W6 m ρ c (Proc.devRef .tc main_arg12) := by show StableHlo.after hostOps3 (W6 m ρ c) (Proc.devRef .tc main_arg12) = _; after_results_simp
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; after_results_simp
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; after_results_simp
    _ = W1 m ρ c (Proc.devRef .tc main_arg12) := W2_of_ne m ρ c main_arg12 (by decide)
    _ = W0 m ρ c (Proc.devRef .tc main_arg12) := by show StableHlo.after hostOps0 (W0 m ρ c) (Proc.devRef .tc main_arg12) = _; after_results_simp
theorem arg12_at_13 (c : Dev nD) : W13 m ρ c (Proc.devRef .tc main_arg12) = m ((c : Thread nD τ).loc main_arg12) :=
  (keep_arg12_13_0 m ρ c).trans rfl

end Cert.KernelIdeal.KeepArgsB

end
-- ==== Proof.Mat4.lean ====
/-
  Region 4 of the idealized kernel: a row-tiled matrix product. The grid has ten points; point t stages rows
  10000·t … 10000·t + 9999 of the left operand and the whole right operand, and writes back the same rows of the
  product. At the extended reals the bf16 casts are the identity and the matrix unit, started from a zero
  accumulator, is the plain sum over the contracted axis, so the output array ends holding, at (p, q), the sum over k
  of left[p, k] · right[k, q], whatever the region found in its arrays.
-/
import proofs.«129519_j25572235280972_1_alg».proof.Proof.Gen.KernelIdeal.Frame
import proofs.«129519_j25572235280972_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat4

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

theorem zero_off : (![0, 0] : Fin 2 → Nat) = fun _ => 0 := funext fun a => by fin_cases a <;> rfl

/-- The product of a left array of 100000 rows and a right array, index by index. -/
def prod (a : S100000x64.Idx → EReal) (b : S64x64.Idx → EReal) : S100000x64.Idx → EReal :=
  fun i => ∑ k : Fin 64, a (ix2 (i 0) k) * b (ix2 k (i 1))

/-- The dimension numbers of the body's matrix unit are those of a plain product. -/
theorem dims_plain : dot_S10000x64_S64x64_S10000x64_1_0_0_1_n_n = DotDims.plain 10000 64 64 := rfl

/-- The body's payload at (p, q): the casts vanish and the unit's result is the sum over the contracted axis. -/
theorem pay_apply (x : Vec Ideal S10000x64 .f32) (w : Vec Ideal S64x64 .f32) (p : Fin 10000) (q : Fin 64) :
    k4_pay1 x w (ix2 p q) = ∑ k : Fin 64, x (ix2 p k) * w (ix2 k q) := by
  unfold k4_pay1
  simp only [shapeCast_self]
  rw [dims_plain]
  exact Cert.Bridge.LibMatmul.matmul_zero_apply none x w p q

/-- The output window's block index is the grid point, the left window's too, the right window stays put. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What point t writes back is block t of the product of the arrays as the region finds them. -/
theorem flushed_eq (c : Dev nD) (t : Fin cfg4.N) :
    (dat4 V c).flushed 2 t = ((cfg4.win 2).blk t).view.read (Elt Ideal) (prod (V c main_v88) (V c main_v90)) := by
  show (cfg4.win 2).cut (grid4.coords t) ((dat4 V c).after 2 t) = _
  rw [after4_2]
  unfold out4_2
  rw [View.canon_unit_zero zero_off]
  simp only [View.ld_unit_zero (S := S10000x64) zero_off, View.ld_unit_zero (S := S64x64) zero_off]
  obtain ⟨e0, e1, e2, e3, e4, e5⟩ := idx_facts t
  funext j
  obtain ⟨p, q, rfl⟩ : ∃ (p : Fin 10000) (q : Fin 64), j = ix2 p q := ⟨j 0, j 1, eq_ix2 j⟩
  show k4_pay1 (iblk4 V c 0 t) (iblk4 V c 1 t) (ix2 p q) = prod (V c main_v88) (V c main_v90) (((cfg4.win 2).blk t).view.emb (ix2 p q))
  rw [pay_apply]
  unfold prod
  refine Finset.sum_congr rfl fun k _ => ?_
  have hl : ((cfg4.win 0).blk t).view.emb (ix2 p k) = ix2 ((((cfg4.win 2).blk t).view.emb (ix2 p q)) 0) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 64 + 1 * k.val = k.val; omega
  have hr : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  exact congrArg₂ (fun a b : EReal => a * b) (congrArg (V c main_v88) hl) (congrArg (V c main_v90) hr)

/-- An index of the output array is in point t's block iff its row lies in the block's ten thousand rows. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v101).slice (win4_2.rect t)).set ↔ _
  rw [View.set_slice_whole, Rect.mem_set_unit]
  exact Iff.rfl

/-- Every row belongs to the block of the point row / 10000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  refine ⟨⟨(i 0).val / 10000, by show _ < 10; omega⟩, flush4_2 _, ?_⟩
  rw [mem_blk]
  obtain ⟨e0, e1, e2, e3, e4, e5⟩ := idx_facts ⟨(i 0).val / 10000, by show _ < 10; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ _ ∧ _ < (i 0).val / 10000 * 10000 + 10000; omega
  | ⟨1, _⟩ => show win4_2.index _ (1 : Fin 2) * 64 ≤ (i 1).val ∧ (i 1).val < win4_2.index _ (1 : Fin 2) * 64 + 64; rw [e5]; omega

/-- The output array after the region is the product of the two input arrays as the region found them. -/
theorem value (c : Dev nD) : (dat4 V c).arrAt 2 cfg4.N = prod (V c main_v88) (V c main_v90) :=
  (dat4 V c).arrAt_eq_of_cover 2 _ (fun t _ => flushed_eq V c t) cover

end Cert.KernelIdeal.Mat4

end
-- ==== Proof.LibLayout.lean ====
/-
  A column broadcast over columns, read at an index: an [a, 1] array broadcast to [a, b] holds, at (p, q), the
  operand's row p.
-/
import Idealize.ShloMosaic.Lib.Pipeline.Value
import Idealize.ShloMosaic.Lib.ValueIdx

namespace Cert.Bridge.LibLayout

open Idealize.ShloMosaic Idealize.ShloMosaic.ValueIdx

variable {α : Type}

/-- An `[a, 1]` array broadcast to `[a, b]` reads, at `(p, q)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Bridge.LibLayout
-- ==== Proof.Fuse5.lean ====
/-
  Region 5 of the idealized kernel: the fused elementwise stage of one graph-convolution layer, tiled over rows. At
  point t the body reads rows 10000·t … 10000·t + 9999 of the aggregated messages, of the linear features and of the
  self-loop coefficient column, and the five per-channel rows (bias, scale, shift, running mean, running variance), and
  writes back the same rows of
      max (scale · ((agg + lin · self) + bias − mean) · rsqrt (variance + ε) + shift, 0),
  the column broadcast along channels and the rows broadcast along nodes.
-/
import proofs.«129519_j25572235280972_1_alg».proof.Proof.Gen.KernelIdeal.Frame
import proofs.«129519_j25572235280972_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse5

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- One element of the stage: aggregated message a, linear feature h, self coefficient s, and the channel's bias,
    scale, shift, mean and variance. -/
def elem (a h s b g bt mn vr : EReal) : EReal :=
  max (g * ((a + h * s) + b - mn) * Ideal.rsqrt (vr + Ideal.ofBits .f32 0x3727C5AC#32) + bt) (Ideal.ofBits .f32 0x00000000#32)

/-- The stage over whole arrays, index by index. -/
def arr (agg lin : S100000x64.Idx → EReal) (self : S100000x1.Idx → EReal) (b g bt mn vr : S1x64.Idx → EReal) :
    S100000x64.Idx → EReal :=
  fun i => elem (agg i) (lin i) (self (ix2 (n0 := 100000) (i 0) (0 : Fin 1))) (b (ix2 (0 : Fin 1) (n1 := 64) (i 1)))
    (g (ix2 (0 : Fin 1) (n1 := 64) (i 1))) (bt (ix2 (0 : Fin 1) (n1 := 64) (i 1))) (mn (ix2 (0 : Fin 1) (n1 := 64) (i 1)))
    (vr (ix2 (0 : Fin 1) (n1 := 64) (i 1)))

/-- The body's payload at (p, q). -/
theorem pay_apply (a h : Vec Ideal S10000x64 .f32) (s : Vec Ideal S10000x1 .f32) (b g mn vr bt : Vec Ideal S1x64 .f32)
    (p : Fin 10000) (q : Fin 64) :
    k5_pay1 a h s b g mn vr bt (ix2 p q)
      = elem (a (ix2 p q)) (h (ix2 p q)) (s (ix2 p (0 : Fin 1))) (b (ix2 (0 : Fin 1) q)) (g (ix2 (0 : Fin 1) q))
          (bt (ix2 (0 : Fin 1) q)) (mn (ix2 (0 : Fin 1) q)) (vr (ix2 (0 : Fin 1) q)) := by
  unfold k5_pay1
  simp only [shapeCast_self, maximumf_apply, addf_apply, mulf_apply, subf_apply, broadcast_apply,
    Cert.Bridge.LibLayout.broadcastTo_a1_ab_apply, broadcastTo_1b_ab_apply]
  rfl

/-- The row-tiled windows move with the grid point; the per-channel windows stay put. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

set_option maxHeartbeats 4000000 in
/-- What point t writes back is block t of the stage over the arrays as the region finds them. -/
theorem flushed_eq (c : Dev nD) (t : Fin cfg5.N) :
    (dat5 V c).flushed 8 t = ((cfg5.win 8).blk t).view.read (Elt Ideal)
      (arr (V c main_v113) (V c main_v101) (V c main_v28) (V c main_v114) (V c main_v115) (V c main_v116) (V c main_v117) (V c main_v118)) := by
  show (cfg5.win 8).cut (grid5.coords t) ((dat5 V c).after 8 t) = _
  rw [after5_8]
  unfold out5_8
  rw [View.canon_unit_zero zero_off]
  simp only [View.ld_unit_zero (S := S10000x64) zero_off, View.ld_unit_zero (S := S10000x1) zero_off, View.ld_unit_zero (S := S1x64) zero_off]
  obtain ⟨e00, e01, e10, e11, e20, e21, e30, e31, e40, e41, e50, e51, e60, e61, e70, e71, e80, e81⟩ := idx_facts t
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (iblk5 V c 3 t) (iblk5 V c 4 t) (iblk5 V c 6 t) (iblk5 V c 7 t) (iblk5 V c 5 t) (ix2 p q)
    = arr (V c main_v113) (V c main_v101) (V c main_v28) (V c main_v114) (V c main_v115) (V c main_v116) (V c main_v117) (V c main_v118) (((cfg5.win 8).blk t).view.emb (ix2 p q))
  rw [pay_apply]
  have h0 : ((cfg5.win 0).blk t).view.emb (ix2 p q) = ((cfg5.win 8).blk t).view.emb (ix2 p q) := by
    funext a; apply Fin.ext
    match a with
    | ⟨0, _⟩ => show win5_0.index t (0 : Fin 2) * 10000 + 1 * p.val = win5_8.index t (0 : Fin 2) * 10000 + 1 * p.val; omega
    | ⟨1, _⟩ => show win5_0.index t (1 : Fin 2) * 64 + 1 * q.val = win5_8.index t (1 : Fin 2) * 64 + 1 * q.val; omega
  have h1 : ((cfg5.win 1).blk t).view.emb (ix2 p q) = ((cfg5.win 8).blk t).view.emb (ix2 p q) := by
    funext a; apply Fin.ext
    match a with
    | ⟨0, _⟩ => show win5_1.index t (0 : Fin 2) * 10000 + 1 * p.val = win5_8.index t (0 : Fin 2) * 10000 + 1 * p.val; omega
    | ⟨1, _⟩ => show win5_1.index t (1 : Fin 2) * 64 + 1 * q.val = win5_8.index t (1 : Fin 2) * 64 + 1 * q.val; omega
  have h2 : ((cfg5.win 2).blk t).view.emb (ix2 p (0 : Fin 1))
      = ix2 (n0 := 100000) ((((cfg5.win 8).blk t).view.emb (ix2 p q)) 0) (0 : Fin 1) := by
    funext a; apply Fin.ext
    match a with
    | ⟨0, _⟩ => show win5_2.index t (0 : Fin 2) * 10000 + 1 * p.val = win5_8.index t (0 : Fin 2) * 10000 + 1 * p.val; omega
    | ⟨1, _⟩ => show win5_2.index t (1 : Fin 2) * 1 + 1 * 0 = 0; omega
  have h3 : ((cfg5.win 3).blk t).view.emb (ix2 (0 : Fin 1) q)
      = ix2 (0 : Fin 1) (n1 := 64) ((((cfg5.win 8).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_8.index t (1 : Fin 2) * 64 + 1 * q.val; omega
  have h4 : ((cfg5.win 4).blk t).view.emb (ix2 (0 : Fin 1) q)
      = ix2 (0 : Fin 1) (n1 := 64) ((((cfg5.win 8).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 64 + 1 * q.val = win5_8.index t (1 : Fin 2) * 64 + 1 * q.val; omega
  have h5 : ((cfg5.win 5).blk t).view.emb (ix2 (0 : Fin 1) q)
      = ix2 (0 : Fin 1) (n1 := 64) ((((cfg5.win 8).blk t).view.emb (ix2 p q)) 1) := by
    funext a; apply Fin.ext
    match a with
    | ⟨0, _⟩ => show win5_5.index t (0 : Fin 2) * 1 + 1 * 0 = 0; omega
    | ⟨1, _⟩ => show win5_5.index t (1 : Fin 2) * 64 + 1 * q.val = win5_8.index t (1 : Fin 2) * 64 + 1 * q.val; omega
  have h6 : ((cfg5.win 6).blk t).view.emb (ix2 (0 : Fin 1) q)
      = ix2 (0 : Fin 1) (n1 := 64) ((((cfg5.win 8).blk t).view.emb (ix2 p q)) 1) := by
    funext a; apply Fin.ext
    match a with
    | ⟨0, _⟩ => show win5_6.index t (0 : Fin 2) * 1 + 1 * 0 = 0; omega
    | ⟨1, _⟩ => show win5_6.index t (1 : Fin 2) * 64 + 1 * q.val = win5_8.index t (1 : Fin 2) * 64 + 1 * q.val; omega
  have h7 : ((cfg5.win 7).blk t).view.emb (ix2 (0 : Fin 1) q)
      = ix2 (0 : Fin 1) (n1 := 64) ((((cfg5.win 8).blk t).view.emb (ix2 p q)) 1) := by
    funext a; apply Fin.ext
    match a with
    | ⟨0, _⟩ => show win5_7.index t (0 : Fin 2) * 1 + 1 * 0 = 0; omega
    | ⟨1, _⟩ => show win5_7.index t (1 : Fin 2) * 64 + 1 * q.val = win5_8.index t (1 : Fin 2) * 64 + 1 * q.val; omega
  show elem (V c main_v113 (((cfg5.win 0).blk t).view.emb (ix2 p q))) (V c main_v101 (((cfg5.win 1).blk t).view.emb (ix2 p q)))
      (V c main_v28 (((cfg5.win 2).blk t).view.emb (ix2 p (0 : Fin 1)))) (V c main_v114 (((cfg5.win 3).blk t).view.emb (ix2 (0 : Fin 1) q)))
      (V c main_v115 (((cfg5.win 4).blk t).view.emb (ix2 (0 : Fin 1) q))) (V c main_v116 (((cfg5.win 5).blk t).view.emb (ix2 (0 : Fin 1) q)))
      (V c main_v117 (((cfg5.win 6).blk t).view.emb (ix2 (0 : Fin 1) q))) (V c main_v118 (((cfg5.win 7).blk t).view.emb (ix2 (0 : Fin 1) q)))
    = arr (V c main_v113) (V c main_v101) (V c main_v28) (V c main_v114) (V c main_v115) (V c main_v116) (V c main_v117) (V c main_v118)
        (((cfg5.win 8).blk t).view.emb (ix2 p q))
  rw [h0, h1, h2, h3, h4, h5, h6, h7]
  rfl

/-- An index of the output array is in point t's block iff its row lies in the block's ten thousand rows. -/
theorem mem_blk (t : Fin cfg5.N) (i : S100000x64.Idx) :
    i ∈ ((cfg5.win 8).blk t).view.set ↔ ∀ a : Fin 2, win5_8.index t a * S10000x64.size a ≤ (i a).val ∧ (i a).val < win5_8.index t a * S10000x64.size a + S10000x64.size a := by
  show i ∈ ((View.whole main_v119).slice (win5_8.rect t)).set ↔ _
  rw [View.set_slice_whole, Rect.mem_set_unit]
  exact Iff.rfl

/-- Every row belongs to the block of the point row / 10000. -/
theorem cover (i : S100000x64.Idx) :
    ∃ t : Fin cfg5.N, (cfg5.win 8).flush t = true ∧ i ∈ ((cfg5.win 8).blk t).view.set := by
  have hi0 : (i 0).val < 100000 := (i 0).isLt
  have hi1 : (i 1).val < 64 := (i 1).isLt
  refine ⟨⟨(i 0).val / 10000, by show _ < 10; omega⟩, flush5_8 _, ?_⟩
  rw [mem_blk]
  obtain ⟨e00, e01, e10, e11, e20, e21, e30, e31, e40, e41, e50, e51, e60, e61, e70, e71, e80, e81⟩ := idx_facts ⟨(i 0).val / 10000, by show _ < 10; omega⟩
  intro a
  match a with
  | ⟨0, _⟩ => show win5_8.index _ (0 : Fin 2) * 10000 ≤ (i 0).val ∧ (i 0).val < win5_8.index _ (0 : Fin 2) * 10000 + 10000; rw [e80]; show (i 0).val / 10000 * 10000 ≤ _ ∧ _ < (i 0).val / 10000 * 10000 + 10000; omega
  | ⟨1, _⟩ => show win5_8.index _ (1 : Fin 2) * 64 ≤ (i 1).val ∧ (i 1).val < win5_8.index _ (1 : Fin 2) * 64 + 64; rw [e81]; omega

/-- The output array after the region is the stage over the input arrays as the region found them. -/
theorem value (c : Dev nD) : (dat5 V c).arrAt 8 cfg5.N
    = arr (V c main_v113) (V c main_v101) (V c main_v28) (V c main_v114) (V c main_v115) (V c main_v116) (V c main_v117) (V c main_v118) :=
  (dat5 V c).arrAt_eq_of_cover 8 _ (fun t _ => flushed_eq V c t) cover

end Cert.KernelIdeal.Fuse5

end
-- ==== Proof.KeepArgs.lean ====
/-
  The argument arrays at the boundaries where a later stretch of host operations or a later region reads them: no
  host operation writes an argument and a region that reads one through an input window leaves it as it found it, so
  each boundary's contents at an argument are the launch contents.
-/
import proofs.«129519_j25572235280972_1_alg».proof.Proof.Gen.KernelIdeal.Frame
import Idealize.ShloMosaic.PureOps.Ideal
import Idealize.ShloMosaic.Lib.StableHlo.Run

set_option maxRecDepth 16384

noncomputable section

namespace Cert.KernelIdeal.KeepArgs

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := by show StableHlo.after hostOps0 (W0 m ρ c) (Proc.devRef .tc main_arg0) = _; after_results_simp
theorem arg0_at_1 (c : Dev nD) : W1 m ρ c (Proc.devRef .tc main_arg0) = m ((c : Thread nD τ).loc main_arg0) :=
  (keep_arg0_1_0 m ρ c).trans rfl
theorem keep_arg3_1_0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := by show StableHlo.after hostOps0 (W0 m ρ c) (Proc.devRef .tc main_arg3) = _; after_results_simp
theorem arg3_at_1 (c : Dev nD) : W1 m ρ c (Proc.devRef .tc main_arg3) = m ((c : Thread nD τ).loc main_arg3) :=
  (keep_arg3_1_0 m ρ c).trans rfl
theorem keep_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by show StableHlo.after hostOps1 (W2 m ρ c) (Proc.devRef .tc main_arg4) = _; after_results_simp
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = _; after_results_simp
theorem arg4_at_4 (c : Dev nD) : W4 m ρ c (Proc.devRef .tc main_arg4) = m ((c : Thread nD τ).loc main_arg4) :=
  (keep_arg4_4_0 m ρ c).trans rfl
theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by show StableHlo.after hostOps1 (W2 m ρ c) (Proc.devRef .tc main_arg5) = _; after_results_simp
    _ = W1 m ρ c (Proc.devRef .tc main_arg5) := W2_of_ne m ρ c main_arg5 (by decide)
    _ = W0 m ρ c (Proc.devRef .tc main_arg5) := by show StableHlo.after hostOps0 (W0 m ρ c) (Proc.devRef .tc main_arg5) = _; after_results_simp
theorem arg5_at_4 (c : Dev nD) : W4 m ρ c (Proc.devRef .tc main_arg5) = m ((c : Thread nD τ).loc main_arg5) :=
  (keep_arg5_4_0 m ρ c).trans rfl
theorem keep_arg6_4_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := by show StableHlo.after hostOps1 (W2 m ρ c) (Proc.devRef .tc main_arg6) = _; after_results_simp
    _ = W1 m ρ c (Proc.devRef .tc main_arg6) := W2_of_ne m ρ c main_arg6 (by decide)
    _ = W0 m ρ c (Proc.devRef .tc main_arg6) := by show StableHlo.after hostOps0 (W0 m ρ c) (Proc.devRef .tc main_arg6) = _; after_results_simp
theorem arg6_at_4 (c : Dev nD) : W4 m ρ c (Proc.devRef .tc main_arg6) = m ((c : Thread nD τ).loc main_arg6) :=
  (keep_arg6_4_0 m ρ c).trans rfl
theorem keep_arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; after_results_simp
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; after_results_simp
theorem arg7_at_4 (c : Dev nD) : W4 m ρ c (Proc.devRef .tc main_arg7) = m ((c : Thread nD τ).loc main_arg7) :=
  (keep_arg7_4_0 m ρ c).trans rfl
theorem keep_arg8_4_0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; after_results_simp
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; after_results_simp
theorem arg8_at_4 (c : Dev nD) : W4 m ρ c (Proc.devRef .tc main_arg8) = m ((c : Thread nD τ).loc main_arg8) :=
  (keep_arg8_4_0 m ρ c).trans rfl
theorem keep_arg9_4_0 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; after_results_simp
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; after_results_simp
theorem arg9_at_4 (c : Dev nD) : W4 m ρ c (Proc.devRef .tc main_arg9) = m ((c : Thread nD τ).loc main_arg9) :=
  (keep_arg9_4_0 m ρ c).trans rfl

end Cert.KernelIdeal.KeepArgs

end
-- ==== Proof.KeepVars.lean ====
/-
  The intermediate arrays that outlive the segment that wrote them (the edge endpoints, the edge and self-loop
  coefficients, each layer's parameter rows and linear features): from the boundary after their writer to the
  boundary where they are read, no host operation and no region's write-back touches them.
-/
import proofs.«129519_j25572235280972_1_alg».proof.Proof.Gen.KernelIdeal.Frame
import Idealize.ShloMosaic.PureOps.Ideal
import Idealize.ShloMosaic.Lib.StableHlo.Run

set_option maxRecDepth 16384

noncomputable section

namespace Cert.KernelIdeal.KeepVars

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem keep_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem keep_v1_6_2 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by show StableHlo.after hostOps2 (W4 m ρ c) (Proc.devRef .tc main_v1) = _; after_results_simp
    _ = W3 m ρ c (Proc.devRef .tc main_v1) := W4_of_ne m ρ c main_v1 (by decide)
    _ = W2 m ρ c (Proc.devRef .tc main_v1) := by show StableHlo.after hostOps1 (W2 m ρ c) (Proc.devRef .tc main_v1) = _; after_results_simp
theorem keep_v1_10_6 (c : Dev nD) : W10 m ρ c (Proc.devRef .tc main_v1) = W6 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by show StableHlo.after hostOps4 (W8 m ρ c) (Proc.devRef .tc main_v1) = _; after_results_simp
    _ = W7 m ρ c (Proc.devRef .tc main_v1) := W8_of_ne m ρ c main_v1 (by decide)
    _ = W6 m ρ c (Proc.devRef .tc main_v1) := by show StableHlo.after hostOps3 (W6 m ρ c) (Proc.devRef .tc main_v1) = _; after_results_simp
theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem keep_v3_6_2 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by show StableHlo.after hostOps2 (W4 m ρ c) (Proc.devRef .tc main_v3) = _; after_results_simp
    _ = W3 m ρ c (Proc.devRef .tc main_v3) := W4_of_ne m ρ c main_v3 (by decide)
    _ = W2 m ρ c (Proc.devRef .tc main_v3) := by show StableHlo.after hostOps1 (W2 m ρ c) (Proc.devRef .tc main_v3) = _; after_results_simp
theorem keep_v3_10_6 (c : Dev nD) : W10 m ρ c (Proc.devRef .tc main_v3) = W6 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by show StableHlo.after hostOps4 (W8 m ρ c) (Proc.devRef .tc main_v3) = _; after_results_simp
    _ = W7 m ρ c (Proc.devRef .tc main_v3) := W8_of_ne m ρ c main_v3 (by decide)
    _ = W6 m ρ c (Proc.devRef .tc main_v3) := by show StableHlo.after hostOps3 (W6 m ρ c) (Proc.devRef .tc main_v3) = _; after_results_simp
theorem keep_v26_2_1 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)
theorem keep_v26_6_2 (c : Dev nD) : W6 m ρ c (Proc.devRef .tc main_v26) = W2 m ρ c (Proc.devRef .tc main_v26) :=
  calc W6 m ρ c (Proc.devRef .tc main_v26)
    _ = W5 m ρ c (Proc.devRef .tc main_v26) := W6_of_ne m ρ c main_v26 (by decide)
    _ = W4 m ρ c (Proc.devRef .tc main_v26) := by show StableHlo.after hostOps2 (W4 m ρ c) (Proc.devRef .tc main_v26) = _; after_results_simp
    _ = W3 m ρ c (Proc.devRef .tc main_v26) := W4_of_ne m ρ c main_v26 (by decide)
    _ = W2 m ρ c (Proc.devRef .tc main_v26) := by show StableHlo.after hostOps1 (W2 m ρ c) (Proc.devRef .tc main_v26) = _; after_results_simp
theorem keep_v26_10_6 (c : Dev nD) : W10 m ρ c (Proc.devRef .tc main_v26) = W6 m ρ c (Proc.devRef .tc main_v26) :=
  calc W10 m ρ c (Proc.devRef .tc main_v26)
    _ = W9 m ρ c (Proc.devRef .tc main_v26) := W10_of_ne m ρ c main_v26 (by decide)
    _ = W8 m ρ c (Proc.devRef .tc main_v26) := by show StableHlo.after hostOps4 (W8 m ρ c) (Proc.devRef .tc main_v26) = _; after_results_simp
    _ = W7 m ρ c (Proc.devRef .tc main_v26) := W8_of_ne m ρ c main_v26 (by decide)
    _ = W6 m ρ c (Proc.devRef .tc main_v26) := by show StableHlo.after hostOps3 (W6 m ρ c) (Proc.devRef .tc main_v26) = _; after_results_simp
theorem keep_v28_3_1 (c : Dev nD) : W3 m ρ c (Proc.devRef .tc main_v28) = W1 m ρ c (Proc.devRef .tc main_v28) :=
  calc W3 m ρ c (Proc.devRef .tc main_v28)
    _ = W2 m ρ c (Proc.devRef .tc main_v28) := by show StableHlo.after hostOps1 (W2 m ρ c) (Proc.devRef .tc main_v28) = _; after_results_simp
    _ = W1 m ρ c (Proc.devRef .tc main_v28) := W2_of_ne m ρ c main_v28 (by decide)
theorem keep_v28_7_3 (c : Dev nD) : W7 m ρ c (Proc.devRef .tc main_v28) = W3 m ρ c (Proc.devRef .tc main_v28) :=
  calc W7 m ρ c (Proc.devRef .tc main_v28)
    _ = W6 m ρ c (Proc.devRef .tc main_v28) := by show StableHlo.after hostOps3 (W6 m ρ c) (Proc.devRef .tc main_v28) = _; after_results_simp
    _ = W5 m ρ c (Proc.devRef .tc main_v28) := W6_of_ne m ρ c main_v28 (by decide)
    _ = W4 m ρ c (Proc.devRef .tc main_v28) := by show StableHlo.after hostOps2 (W4 m ρ c) (Proc.devRef .tc main_v28) = _; after_results_simp
    _ = W3 m ρ c (Proc.devRef .tc main_v28) := (W4_arr m ρ c 2).trans (((dat1 (V3 m ρ) c).arrAt_in 2 rfl _).trans (A_eq1 (V3 m ρ) c 2))
theorem keep_v28_11_7 (c : Dev nD) : W11 m ρ c (Proc.devRef .tc main_v28) = W7 m ρ c (Proc.devRef .tc main_v28) :=
  calc W11 m ρ c (Proc.devRef .tc main_v28)
    _ = W10 m ρ c (Proc.devRef .tc main_v28) := by show StableHlo.after hostOps5 (W10 m ρ c) (Proc.devRef .tc main_v28) = _; after_results_simp
    _ = W9 m ρ c (Proc.devRef .tc main_v28) := W10_of_ne m ρ c main_v28 (by decide)
    _ = W8 m ρ c (Proc.devRef .tc main_v28) := by show StableHlo.after hostOps4 (W8 m ρ c) (Proc.devRef .tc main_v28) = _; after_results_simp
    _ = W7 m ρ c (Proc.devRef .tc main_v28) := (W8_arr m ρ c 2).trans (((dat3 (V7 m ρ) c).arrAt_in 2 rfl _).trans (A_eq3 (V7 m ρ) c 2))
theorem keep_v30_2_1 (c : Dev nD) : W2 m ρ c (Proc.devRef .tc main_v30) = W1 m ρ c (Proc.devRef .tc main_v30) :=
  calc W2 m ρ c (Proc.devRef .tc main_v30)
    _ = W1 m ρ c (Proc.devRef .tc main_v30) := W2_of_ne m ρ c main_v30 (by decide)
theorem keep_v32_2_1 (c : Dev nD) : W2 m ρ c (Proc.devRef .tc main_v32) = W1 m ρ c (Proc.devRef .tc main_v32) :=
  calc W2 m ρ c (Proc.devRef .tc main_v32)
    _ = W1 m ρ c (Proc.devRef .tc main_v32) := W2_of_ne m ρ c main_v32 (by decide)
theorem keep_v34_2_1 (c : Dev nD) : W2 m ρ c (Proc.devRef .tc main_v34) = W1 m ρ c (Proc.devRef .tc main_v34) :=
  calc W2 m ρ c (Proc.devRef .tc main_v34)
    _ = W1 m ρ c (Proc.devRef .tc main_v34) := W2_of_ne m ρ c main_v34 (by decide)
theorem keep_v36_2_1 (c : Dev nD) : W2 m ρ c (Proc.devRef .tc main_v36) = W1 m ρ c (Proc.devRef .tc main_v36) :=
  calc W2 m ρ c (Proc.devRef .tc main_v36)
    _ = W1 m ρ c (Proc.devRef .tc main_v36) := W2_of_ne m ρ c main_v36 (by decide)
theorem keep_v38_2_1 (c : Dev nD) : W2 m ρ c (Proc.devRef .tc main_v38) = W1 m ρ c (Proc.devRef .tc main_v38) :=
  calc W2 m ρ c (Proc.devRef .tc main_v38)
    _ = W1 m ρ c (Proc.devRef .tc main_v38) := W2_of_ne m ρ c main_v38 (by decide)
theorem keep_v39_3_2 (c : Dev nD) : W3 m ρ c (Proc.devRef .tc main_v39) = W2 m ρ c (Proc.devRef .tc main_v39) :=
  calc W3 m ρ c (Proc.devRef .tc main_v39)
    _ = W2 m ρ c (Proc.devRef .tc main_v39) := by show StableHlo.after hostOps1 (W2 m ρ c) (Proc.devRef .tc main_v39) = _; after_results_simp
theorem keep_v57_5_4 (c : Dev nD) : W5 m ρ c (Proc.devRef .tc main_v57) = W4 m ρ c (Proc.devRef .tc main_v57) :=
  calc W5 m ρ c (Proc.devRef .tc main_v57)
    _ = W4 m ρ c (Proc.devRef .tc main_v57) := by show StableHlo.after hostOps2 (W4 m ρ c) (Proc.devRef .tc main_v57) = _; after_results_simp
theorem keep_v61_6_5 (c : Dev nD) : W6 m ρ c (Proc.devRef .tc main_v61) = W5 m ρ c (Proc.devRef .tc main_v61) :=
  calc W6 m ρ c (Proc.devRef .tc main_v61)
    _ = W5 m ρ c (Proc.devRef .tc main_v61) := W6_of_ne m ρ c main_v61 (by decide)
theorem keep_v63_6_5 (c : Dev nD) : W6 m ρ c (Proc.devRef .tc main_v63) = W5 m ρ c (Proc.devRef .tc main_v63) :=
  calc W6 m ρ c (Proc.devRef .tc main_v63)
    _ = W5 m ρ c (Proc.devRef .tc main_v63) := W6_of_ne m ρ c main_v63 (by decide)
theorem keep_v65_6_5 (c : Dev nD) : W6 m ρ c (Proc.devRef .tc main_v65) = W5 m ρ c (Proc.devRef .tc main_v65) :=
  calc W6 m ρ c (Proc.devRef .tc main_v65)
    _ = W5 m ρ c (Proc.devRef .tc main_v65) := W6_of_ne m ρ c main_v65 (by decide)
theorem keep_v67_6_5 (c : Dev nD) : W6 m ρ c (Proc.devRef .tc main_v67) = W5 m ρ c (Proc.devRef .tc main_v67) :=
  calc W6 m ρ c (Proc.devRef .tc main_v67)
    _ = W5 m ρ c (Proc.devRef .tc main_v67) := W6_of_ne m ρ c main_v67 (by decide)
theorem keep_v69_6_5 (c : Dev nD) : W6 m ρ c (Proc.devRef .tc main_v69) = W5 m ρ c (Proc.devRef .tc main_v69) :=
  calc W6 m ρ c (Proc.devRef .tc main_v69)
    _ = W5 m ρ c (Proc.devRef .tc main_v69) := W6_of_ne m ρ c main_v69 (by decide)
theorem keep_v70_7_6 (c : Dev nD) : W7 m ρ c (Proc.devRef .tc main_v70) = W6 m ρ c (Proc.devRef .tc main_v70) :=
  calc W7 m ρ c (Proc.devRef .tc main_v70)
    _ = W6 m ρ c (Proc.devRef .tc main_v70) := by show StableHlo.after hostOps3 (W6 m ρ c) (Proc.devRef .tc main_v70) = _; after_results_simp
theorem keep_v88_9_8 (c : Dev nD) : W9 m ρ c (Proc.devRef .tc main_v88) = W8 m ρ c (Proc.devRef .tc main_v88) :=
  calc W9 m ρ c (Proc.devRef .tc main_v88)
    _ = W8 m ρ c (Proc.devRef .tc main_v88) := by show StableHlo.after hostOps4 (W8 m ρ c) (Proc.devRef .tc main_v88) = _; after_results_simp
theorem keep_v92_10_9 (c : Dev nD) : W10 m ρ c (Proc.devRef .tc main_v92) = W9 m ρ c (Proc.devRef .tc main_v92) :=
  calc W10 m ρ c (Proc.devRef .tc main_v92)
    _ = W9 m ρ c (Proc.devRef .tc main_v92) := W10_of_ne m ρ c main_v92 (by decide)
theorem keep_v94_10_9 (c : Dev nD) : W10 m ρ c (Proc.devRef .tc main_v94) = W9 m ρ c (Proc.devRef .tc main_v94) :=
  calc W10 m ρ c (Proc.devRef .tc main_v94)
    _ = W9 m ρ c (Proc.devRef .tc main_v94) := W10_of_ne m ρ c main_v94 (by decide)
theorem keep_v96_10_9 (c : Dev nD) : W10 m ρ c (Proc.devRef .tc main_v96) = W9 m ρ c (Proc.devRef .tc main_v96) :=
  calc W10 m ρ c (Proc.devRef .tc main_v96)
    _ = W9 m ρ c (Proc.devRef .tc main_v96) := W10_of_ne m ρ c main_v96 (by decide)
theorem keep_v98_10_9 (c : Dev nD) : W10 m ρ c (Proc.devRef .tc main_v98) = W9 m ρ c (Proc.devRef .tc main_v98) :=
  calc W10 m ρ c (Proc.devRef .tc main_v98)
    _ = W9 m ρ c (Proc.devRef .tc main_v98) := W10_of_ne m ρ c main_v98 (by decide)
theorem keep_v100_10_9 (c : Dev nD) : W10 m ρ c (Proc.devRef .tc main_v100) = W9 m ρ c (Proc.devRef .tc main_v100) :=
  calc W10 m ρ c (Proc.devRef .tc main_v100)
    _ = W9 m ρ c (Proc.devRef .tc main_v100) := W10_of_ne m ρ c main_v100 (by decide)
theorem keep_v101_11_10 (c : Dev nD) : W11 m ρ c (Proc.devRef .tc main_v101) = W10 m ρ c (Proc.devRef .tc main_v101) :=
  calc W11 m ρ c (Proc.devRef .tc main_v101)
    _ = W10 m ρ c (Proc.devRef .tc main_v101) := by show StableHlo.after hostOps5 (W10 m ρ c) (Proc.devRef .tc main_v101) = _; after_results_simp

end Cert.KernelIdeal.KeepVars

end
-- ==== Proof.Host0.lean ====
/-
  What the first stretch of host operations leaves, in the reference's own terms: the edge endpoints (rows of the
  edge-index array), the per-edge coefficient column dinv[src]·dinv[dst] and the self-loop coefficient column dinv²,
  with dinv = rsqrt (in-degree + 1), and the first layer's five parameter rows. The kernel's host program computes
  them by the same operations on the same arguments as the reference, so each is the reference's stage.
-/
import proofs.«129519_j25572235280972_1_alg».proof.Proof.Gen.KernelIdeal.Frame
import Idealize.ShloMosaic.PureOps.Ideal
import Idealize.ShloMosaic.Lib.StableHlo.Run
import proofs.«129519_j25572235280972_1_alg».proof.Proof.Gen.ReferenceIdeal.Read

set_option maxRecDepth 16384

noncomputable section

namespace Cert.KernelIdeal.Host0

open Idealize.ShloMosaic Idealize.ShloMosaic.TcCoe Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg)

theorem src_at_1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem dst_at_1 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem coef_at_1 (c : Dev nD) : W1 m ρ c (Proc.devRef .tc main_v26) = val_main_v37 (F := Ideal) (m ((c : Thread nD τ).loc main_arg1)) := by
  show StableHlo.after hostOps0 (W0 m ρ c) (Proc.devRef .tc main_v26) = _
  after_results_simp
  rfl
theorem self_at_1 (c : Dev nD) : W1 m ρ c (Proc.devRef .tc main_v28) = val_main_v43 (F := Ideal) (m ((c : Thread nD τ).loc main_arg1)) := by
  show StableHlo.after hostOps0 (W0 m ρ c) (Proc.devRef .tc main_v28) = _
  after_results_simp
  rfl
theorem bias_at_1 (c : Dev nD) : W1 m ρ c (Proc.devRef .tc main_v30) = val_main_v28 (F := Ideal) (m ((c : Thread nD τ).loc main_arg5)) := by
  show StableHlo.after hostOps0 (W0 m ρ c) (Proc.devRef .tc main_v30) = _
  after_results_simp
  rfl
theorem scale_at_1 (c : Dev nD) : W1 m ρ c (Proc.devRef .tc main_v32) = val_main_v51 (F := Ideal) (m ((c : Thread nD τ).loc main_arg6)) := by
  show StableHlo.after hostOps0 (W0 m ρ c) (Proc.devRef .tc main_v32) = _
  after_results_simp
  rfl
theorem shift_at_1 (c : Dev nD) : W1 m ρ c (Proc.devRef .tc main_v34) = val_main_v69 (F := Ideal) (m ((c : Thread nD τ).loc main_arg7)) := by
  show StableHlo.after hostOps0 (W0 m ρ c) (Proc.devRef .tc main_v34) = _
  after_results_simp
  rfl
theorem mean_at_1 (c : Dev nD) : W1 m ρ c (Proc.devRef .tc main_v36) = val_main_v53 (F := Ideal) (m ((c : Thread nD τ).loc main_arg8)) := by
  show StableHlo.after hostOps0 (W0 m ρ c) (Proc.devRef .tc main_v36) = _
  after_results_simp
  rfl
theorem var_at_1 (c : Dev nD) : W1 m ρ c (Proc.devRef .tc main_v38) = val_main_v61 (F := Ideal) (m ((c : Thread nD τ).loc main_arg9)) := by
  show StableHlo.after hostOps0 (W0 m ρ c) (Proc.devRef .tc main_v38) = _
  after_results_simp
  rfl

end Cert.KernelIdeal.Host0

end
-- ==== Proof.Mat2.lean ====
/-
  Region 2 of the idealized kernel: a row-tiled matrix product. The grid has ten points; point t stages rows
  10000·t … 10000·t + 9999 of the left operand and the whole right operand, and writes back the same rows of the
  product. At the extended reals the bf16 casts are the identity and the matrix unit, started from a zero
  accumulator, is the plain sum over the contracted axis, so the output array ends holding, at (p, q), the sum over k
  of left[p, k] · right[k, q], whatever the region found in its arrays.
-/
import proofs.«129519_j25572235280972_1_alg».proof.Proof.Gen.KernelIdeal.Frame
import proofs.«129519_j25572235280972_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat2

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

theorem zero_off : (![0, 0] : Fin 2 → Nat) = fun _ => 0 := funext fun a => by fin_cases a <;> rfl

/-- The product of a left array of 100000 rows and a right array, index by index. -/
def prod (a : S100000x64.Idx → EReal) (b : S64x64.Idx → EReal) : S100000x64.Idx → EReal :=
  fun i => ∑ k : Fin 64, a (ix2 (i 0) k) * b (ix2 k (i 1))

/-- The dimension numbers of the body's matrix unit are those of a plain product. -/
theorem dims_plain : dot_S10000x64_S64x64_S10000x64_1_0_0_1_n_n = DotDims.plain 10000 64 64 := rfl

/-- The body's payload at (p, q): the casts vanish and the unit's result is the sum over the contracted axis. -/
theorem pay_apply (x : Vec Ideal S10000x64 .f32) (w : Vec Ideal S64x64 .f32) (p : Fin 10000) (q : Fin 64) :
    k2_pay1 x w (ix2 p q) = ∑ k : Fin 64, x (ix2 p k) * w (ix2 k q) := by
  unfold k2_pay1
  simp only [shapeCast_self]
  rw [dims_plain]
  exact Cert.Bridge.LibMatmul.matmul_zero_apply none x w p q

/-- The output window's block index is the grid point, the left window's too, the right window stays put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 4000000 in
/-- What point t writes back is block t of the product of the arrays as the region finds them. -/
theorem flushed_eq (c : Dev nD) (t : Fin cfg2.N) :
    (dat2 V c).flushed 2 t = ((cfg2.win 2).blk t).view.read (Elt Ideal) (prod (V c main_v57) (V c main_v59)) := by
  show (cfg2.win 2).cut (grid2.coords t) ((dat2 V c).after 2 t) = _
  rw [after2_2]
  unfold out2_2
  rw [View.canon_unit_zero zero_off]
  simp only [View.ld_unit_zero (S := S10000x64) zero_off, View.ld_unit_zero (S := S64x64) zero_off]
  obtain ⟨e0, e1, e2, e3, e4, e5⟩ := idx_facts t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = prod (V c main_v57) (V c main_v59) (((cfg2.win 2).blk t).view.emb (ix2 p q))
  rw [pay_apply]
  unfold prod
  refine Finset.sum_congr rfl fun k _ => ?_
  have hl : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hr : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (fun a b : EReal => a * b) (congrArg (V c main_v57) hl) (congrArg (V c main_v59) hr)

/-- An index of the output array is in point t's block iff its row lies in the block's ten thousand rows. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v70).slice (win2_2.rect t)).set ↔ _
  rw [View.set_slice_whole, Rect.mem_set_unit]
  exact Iff.rfl

/-- Every row belongs to the block of the point row / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 10000, by show _ < 10; omega⟩, flush2_2 _, ?_⟩
  rw [mem_blk]
  obtain ⟨e0, e1, e2, e3, e4, e5⟩ := idx_facts ⟨(i 0).val / 10000, by show _ < 10; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ _ ∧ _ < (i 0).val / 10000 * 10000 + 10000; omega
  | ⟨1, _⟩ => show win2_2.index _ (1 : Fin 2) * 64 ≤ (i 1).val ∧ (i 1).val < win2_2.index _ (1 : Fin 2) * 64 + 64; rw [e5]; omega

/-- The output array after the region is the product of the two input arrays as the region found them. -/
theorem value (c : Dev nD) : (dat2 V c).arrAt 2 cfg2.N = prod (V c main_v57) (V c main_v59) :=
  (dat2 V c).arrAt_eq_of_cover 2 _ (fun t _ => flushed_eq V c t) cover

end Cert.KernelIdeal.Mat2

end
-- ==== Proof.Fuse3.lean ====
/-
  Region 3 of the idealized kernel: the fused elementwise stage of one graph-convolution layer, tiled over rows. At
  point t the body reads rows 10000·t … 10000·t + 9999 of the aggregated messages, of the linear features and of the
  self-loop coefficient column, and the five per-channel rows (bias, scale, shift, running mean, running variance), and
  writes back the same rows of
      max (scale · ((agg + lin · self) + bias − mean) · rsqrt (variance + ε) + shift, 0),
  the column broadcast along channels and the rows broadcast along nodes.
-/
import proofs.«129519_j25572235280972_1_alg».proof.Proof.Gen.KernelIdeal.Frame
import proofs.«129519_j25572235280972_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse3

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- One element of the stage: aggregated message a, linear feature h, self coefficient s, and the channel's bias,
    scale, shift, mean and variance. -/
def elem (a h s b g bt mn vr : EReal) : EReal :=
  max (g * ((a + h * s) + b - mn) * Ideal.rsqrt (vr + Ideal.ofBits .f32 0x3727C5AC#32) + bt) (Ideal.ofBits .f32 0x00000000#32)

/-- The stage over whole arrays, index by index. -/
def arr (agg lin : S100000x64.Idx → EReal) (self : S100000x1.Idx → EReal) (b g bt mn vr : S1x64.Idx → EReal) :
    S100000x64.Idx → EReal :=
  fun i => elem (agg i) (lin i) (self (ix2 (n0 := 100000) (i 0) (0 : Fin 1))) (b (ix2 (0 : Fin 1) (n1 := 64) (i 1)))
    (g (ix2 (0 : Fin 1) (n1 := 64) (i 1))) (bt (ix2 (0 : Fin 1) (n1 := 64) (i 1))) (mn (ix2 (0 : Fin 1) (n1 := 64) (i 1)))
    (vr (ix2 (0 : Fin 1) (n1 := 64) (i 1)))

/-- The body's payload at (p, q). -/
theorem pay_apply (a h : Vec Ideal S10000x64 .f32) (s : Vec Ideal S10000x1 .f32) (b g mn vr bt : Vec Ideal S1x64 .f32)
    (p : Fin 10000) (q : Fin 64) :
    k3_pay1 a h s b g mn vr bt (ix2 p q)
      = elem (a (ix2 p q)) (h (ix2 p q)) (s (ix2 p (0 : Fin 1))) (b (ix2 (0 : Fin 1) q)) (g (ix2 (0 : Fin 1) q))
          (bt (ix2 (0 : Fin 1) q)) (mn (ix2 (0 : Fin 1) q)) (vr (ix2 (0 : Fin 1) q)) := by
  unfold k3_pay1
  simp only [shapeCast_self, maximumf_apply, addf_apply, mulf_apply, subf_apply, broadcast_apply,
    Cert.Bridge.LibLayout.broadcastTo_a1_ab_apply, broadcastTo_1b_ab_apply]
  rfl

/-- The row-tiled windows move with the grid point; the per-channel windows stay put. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

set_option maxHeartbeats 4000000 in
/-- What point t writes back is block t of the stage over the arrays as the region finds them. -/
theorem flushed_eq (c : Dev nD) (t : Fin cfg3.N) :
    (dat3 V c).flushed 8 t = ((cfg3.win 8).blk t).view.read (Elt Ideal)
      (arr (V c main_v82) (V c main_v70) (V c main_v28) (V c main_v83) (V c main_v84) (V c main_v85) (V c main_v86) (V c main_v87)) := by
  show (cfg3.win 8).cut (grid3.coords t) ((dat3 V c).after 8 t) = _
  rw [after3_8]
  unfold out3_8
  rw [View.canon_unit_zero zero_off]
  simp only [View.ld_unit_zero (S := S10000x64) zero_off, View.ld_unit_zero (S := S10000x1) zero_off, View.ld_unit_zero (S := S1x64) zero_off]
  obtain ⟨e00, e01, e10, e11, e20, e21, e30, e31, e40, e41, e50, e51, e60, e61, e70, e71, e80, e81⟩ := idx_facts t
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (iblk3 V c 3 t) (iblk3 V c 4 t) (iblk3 V c 6 t) (iblk3 V c 7 t) (iblk3 V c 5 t) (ix2 p q)
    = arr (V c main_v82) (V c main_v70) (V c main_v28) (V c main_v83) (V c main_v84) (V c main_v85) (V c main_v86) (V c main_v87) (((cfg3.win 8).blk t).view.emb (ix2 p q))
  rw [pay_apply]
  have h0 : ((cfg3.win 0).blk t).view.emb (ix2 p q) = ((cfg3.win 8).blk t).view.emb (ix2 p q) := by
    funext a; apply Fin.ext
    match a with
    | ⟨0, _⟩ => show win3_0.index t (0 : Fin 2) * 10000 + 1 * p.val = win3_8.index t (0 : Fin 2) * 10000 + 1 * p.val; omega
    | ⟨1, _⟩ => show win3_0.index t (1 : Fin 2) * 64 + 1 * q.val = win3_8.index t (1 : Fin 2) * 64 + 1 * q.val; omega
  have h1 : ((cfg3.win 1).blk t).view.emb (ix2 p q) = ((cfg3.win 8).blk t).view.emb (ix2 p q) := by
    funext a; apply Fin.ext
    match a with
    | ⟨0, _⟩ => show win3_1.index t (0 : Fin 2) * 10000 + 1 * p.val = win3_8.index t (0 : Fin 2) * 10000 + 1 * p.val; omega
    | ⟨1, _⟩ => show win3_1.index t (1 : Fin 2) * 64 + 1 * q.val = win3_8.index t (1 : Fin 2) * 64 + 1 * q.val; omega
  have h2 : ((cfg3.win 2).blk t).view.emb (ix2 p (0 : Fin 1))
      = ix2 (n0 := 100000) ((((cfg3.win 8).blk t).view.emb (ix2 p q)) 0) (0 : Fin 1) := by
    funext a; apply Fin.ext
    match a with
    | ⟨0, _⟩ => show win3_2.index t (0 : Fin 2) * 10000 + 1 * p.val = win3_8.index t (0 : Fin 2) * 10000 + 1 * p.val; omega
    | ⟨1, _⟩ => show win3_2.index t (1 : Fin 2) * 1 + 1 * 0 = 0; omega
  have h3 : ((cfg3.win 3).blk t).view.emb (ix2 (0 : Fin 1) q)
      = ix2 (0 : Fin 1) (n1 := 64) ((((cfg3.win 8).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_8.index t (1 : Fin 2) * 64 + 1 * q.val; omega
  have h4 : ((cfg3.win 4).blk t).view.emb (ix2 (0 : Fin 1) q)
      = ix2 (0 : Fin 1) (n1 := 64) ((((cfg3.win 8).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 64 + 1 * q.val = win3_8.index t (1 : Fin 2) * 64 + 1 * q.val; omega
  have h5 : ((cfg3.win 5).blk t).view.emb (ix2 (0 : Fin 1) q)
      = ix2 (0 : Fin 1) (n1 := 64) ((((cfg3.win 8).blk t).view.emb (ix2 p q)) 1) := by
    funext a; apply Fin.ext
    match a with
    | ⟨0, _⟩ => show win3_5.index t (0 : Fin 2) * 1 + 1 * 0 = 0; omega
    | ⟨1, _⟩ => show win3_5.index t (1 : Fin 2) * 64 + 1 * q.val = win3_8.index t (1 : Fin 2) * 64 + 1 * q.val; omega
  have h6 : ((cfg3.win 6).blk t).view.emb (ix2 (0 : Fin 1) q)
      = ix2 (0 : Fin 1) (n1 := 64) ((((cfg3.win 8).blk t).view.emb (ix2 p q)) 1) := by
    funext a; apply Fin.ext
    match a with
    | ⟨0, _⟩ => show win3_6.index t (0 : Fin 2) * 1 + 1 * 0 = 0; omega
    | ⟨1, _⟩ => show win3_6.index t (1 : Fin 2) * 64 + 1 * q.val = win3_8.index t (1 : Fin 2) * 64 + 1 * q.val; omega
  have h7 : ((cfg3.win 7).blk t).view.emb (ix2 (0 : Fin 1) q)
      = ix2 (0 : Fin 1) (n1 := 64) ((((cfg3.win 8).blk t).view.emb (ix2 p q)) 1) := by
    funext a; apply Fin.ext
    match a with
    | ⟨0, _⟩ => show win3_7.index t (0 : Fin 2) * 1 + 1 * 0 = 0; omega
    | ⟨1, _⟩ => show win3_7.index t (1 : Fin 2) * 64 + 1 * q.val = win3_8.index t (1 : Fin 2) * 64 + 1 * q.val; omega
  show elem (V c main_v82 (((cfg3.win 0).blk t).view.emb (ix2 p q))) (V c main_v70 (((cfg3.win 1).blk t).view.emb (ix2 p q)))
      (V c main_v28 (((cfg3.win 2).blk t).view.emb (ix2 p (0 : Fin 1)))) (V c main_v83 (((cfg3.win 3).blk t).view.emb (ix2 (0 : Fin 1) q)))
      (V c main_v84 (((cfg3.win 4).blk t).view.emb (ix2 (0 : Fin 1) q))) (V c main_v85 (((cfg3.win 5).blk t).view.emb (ix2 (0 : Fin 1) q)))
      (V c main_v86 (((cfg3.win 6).blk t).view.emb (ix2 (0 : Fin 1) q))) (V c main_v87 (((cfg3.win 7).blk t).view.emb (ix2 (0 : Fin 1) q)))
    = arr (V c main_v82) (V c main_v70) (V c main_v28) (V c main_v83) (V c main_v84) (V c main_v85) (V c main_v86) (V c main_v87)
        (((cfg3.win 8).blk t).view.emb (ix2 p q))
  rw [h0, h1, h2, h3, h4, h5, h6, h7]
  rfl

/-- An index of the output array is in point t's block iff its row lies in the block's ten thousand rows. -/
theorem mem_blk (t : Fin cfg3.N) (i : S100000x64.Idx) :
    i ∈ ((cfg3.win 8).blk t).view.set ↔ ∀ a : Fin 2, win3_8.index t a * S10000x64.size a ≤ (i a).val ∧ (i a).val < win3_8.index t a * S10000x64.size a + S10000x64.size a := by
  show i ∈ ((View.whole main_v88).slice (win3_8.rect t)).set ↔ _
  rw [View.set_slice_whole, Rect.mem_set_unit]
  exact Iff.rfl

/-- Every row belongs to the block of the point row / 10000. -/
theorem cover (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  refine ⟨⟨(i 0).val / 10000, by show _ < 10; omega⟩, flush3_8 _, ?_⟩
  rw [mem_blk]
  obtain ⟨e00, e01, e10, e11, e20, e21, e30, e31, e40, e41, e50, e51, e60, e61, e70, e71, e80, e81⟩ := idx_facts ⟨(i 0).val / 10000, by show _ < 10; omega⟩
  intro a
  match a with
  | ⟨0, _⟩ => show win3_8.index _ (0 : Fin 2) * 10000 ≤ (i 0).val ∧ (i 0).val < win3_8.index _ (0 : Fin 2) * 10000 + 10000; rw [e80]; show (i 0).val / 10000 * 10000 ≤ _ ∧ _ < (i 0).val / 10000 * 10000 + 10000; omega
  | ⟨1, _⟩ => show win3_8.index _ (1 : Fin 2) * 64 ≤ (i 1).val ∧ (i 1).val < win3_8.index _ (1 : Fin 2) * 64 + 64; rw [e81]; omega

/-- The output array after the region is the stage over the input arrays as the region found them. -/
theorem value (c : Dev nD) : (dat3 V c).arrAt 8 cfg3.N
    = arr (V c main_v82) (V c main_v70) (V c main_v28) (V c main_v83) (V c main_v84) (V c main_v85) (V c main_v86) (V c main_v87) :=
  (dat3 V c).arrAt_eq_of_cover 8 _ (fun t _ => flushed_eq V c t) cover

end Cert.KernelIdeal.Fuse3

end
-- ==== Proof.Mat0.lean ====
/-
  Region 0 of the idealized kernel: a row-tiled matrix product. The grid has ten points; point t stages rows
  10000·t … 10000·t + 9999 of the left operand and the whole right operand, and writes back the same rows of the
  product. At the extended reals the bf16 casts are the identity and the matrix unit, started from a zero
  accumulator, is the plain sum over the contracted axis, so the output array ends holding, at (p, q), the sum over k
  of left[p, k] · right[k, q], whatever the region found in its arrays.
-/
import proofs.«129519_j25572235280972_1_alg».proof.Proof.Gen.KernelIdeal.Frame
import proofs.«129519_j25572235280972_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Mat0

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

theorem zero_off : (![0, 0] : Fin 2 → Nat) = fun _ => 0 := funext fun a => by fin_cases a <;> rfl

/-- The product of a left array of 100000 rows and a right array, index by index. -/
def prod (a : S100000x128.Idx → EReal) (b : S128x64.Idx → EReal) : S100000x64.Idx → EReal :=
  fun i => ∑ k : Fin 128, a (ix2 (i 0) k) * b (ix2 k (i 1))

/-- The dimension numbers of the body's matrix unit are those of a plain product. -/
theorem dims_plain : dot_S10000x128_S128x64_S10000x64_1_0_0_1_n_n = DotDims.plain 10000 128 64 := rfl

/-- The body's payload at (p, q): the casts vanish and the unit's result is the sum over the contracted axis. -/
theorem pay_apply (x : Vec Ideal S10000x128 .f32) (w : Vec Ideal S128x64 .f32) (p : Fin 10000) (q : Fin 64) :
    k0_pay1 x w (ix2 p q) = ∑ k : Fin 128, x (ix2 p k) * w (ix2 k q) := by
  unfold k0_pay1

  rw [dims_plain]
  exact Cert.Bridge.LibMatmul.matmul_zero_apply none x w p q

/-- The output window's block index is the grid point, the left window's too, the right window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 4000000 in
/-- What point t writes back is block t of the product of the arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x64) zero_off]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = prod (V c main_arg0) (V c main_arg3) (((cfg0.win 2).blk t).view.emb (ix2 p q))
  rw [pay_apply]
  unfold prod
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (fun a b : EReal => a * b) (congrArg (V c main_arg0) hl) (congrArg (V c main_arg3) hr)

/-- An index of the output array is in point t's block iff its row lies in the block's ten thousand rows. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v39).slice (win0_2.rect t)).set ↔ _
  rw [View.set_slice_whole, Rect.mem_set_unit]
  exact Iff.rfl

/-- Every row belongs to the block of the point row / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 10000, by show _ < 10; omega⟩, flush0_2 _, ?_⟩
  rw [mem_blk]
  obtain ⟨e0, e1, e2, e3, e4, e5⟩ := idx_facts ⟨(i 0).val / 10000, by show _ < 10; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ _ ∧ _ < (i 0).val / 10000 * 10000 + 10000; omega
  | ⟨1, _⟩ => show win0_2.index _ (1 : Fin 2) * 64 ≤ (i 1).val ∧ (i 1).val < win0_2.index _ (1 : Fin 2) * 64 + 64; rw [e5]; omega

/-- The output array after the region is the product of the two input arrays as the region found them. -/
theorem value (c : Dev nD) : (dat0 V c).arrAt 2 cfg0.N = prod (V c main_arg0) (V c main_arg3) :=
  (dat0 V c).arrAt_eq_of_cover 2 _ (fun t _ => flushed_eq V c t) cover

end Cert.KernelIdeal.Mat0

end
-- ==== Proof.Fuse1.lean ====
/-
  Region 1 of the idealized kernel: the fused elementwise stage of one graph-convolution layer, tiled over rows. At
  point t the body reads rows 10000·t … 10000·t + 9999 of the aggregated messages, of the linear features and of the
  self-loop coefficient column, and the five per-channel rows (bias, scale, shift, running mean, running variance), and
  writes back the same rows of
      max (scale · ((agg + lin · self) + bias − mean) · rsqrt (variance + ε) + shift, 0),
  the column broadcast along channels and the rows broadcast along nodes.
-/
import proofs.«129519_j25572235280972_1_alg».proof.Proof.Gen.KernelIdeal.Frame
import proofs.«129519_j25572235280972_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse1

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- One element of the stage: aggregated message a, linear feature h, self coefficient s, and the channel's bias,
    scale, shift, mean and variance. -/
def elem (a h s b g bt mn vr : EReal) : EReal :=
  max (g * ((a + h * s) + b - mn) * Ideal.rsqrt (vr + Ideal.ofBits .f32 0x3727C5AC#32) + bt) (Ideal.ofBits .f32 0x00000000#32)

/-- The stage over whole arrays, index by index. -/
def arr (agg lin : S100000x64.Idx → EReal) (self : S100000x1.Idx → EReal) (b g bt mn vr : S1x64.Idx → EReal) :
    S100000x64.Idx → EReal :=
  fun i => elem (agg i) (lin i) (self (ix2 (n0 := 100000) (i 0) (0 : Fin 1))) (b (ix2 (0 : Fin 1) (n1 := 64) (i 1)))
    (g (ix2 (0 : Fin 1) (n1 := 64) (i 1))) (bt (ix2 (0 : Fin 1) (n1 := 64) (i 1))) (mn (ix2 (0 : Fin 1) (n1 := 64) (i 1)))
    (vr (ix2 (0 : Fin 1) (n1 := 64) (i 1)))

/-- The body's payload at (p, q). -/
theorem pay_apply (a h : Vec Ideal S10000x64 .f32) (s : Vec Ideal S10000x1 .f32) (b g mn vr bt : Vec Ideal S1x64 .f32)
    (p : Fin 10000) (q : Fin 64) :
    k1_pay1 a h s b g mn vr bt (ix2 p q)
      = elem (a (ix2 p q)) (h (ix2 p q)) (s (ix2 p (0 : Fin 1))) (b (ix2 (0 : Fin 1) q)) (g (ix2 (0 : Fin 1) q))
          (bt (ix2 (0 : Fin 1) q)) (mn (ix2 (0 : Fin 1) q)) (vr (ix2 (0 : Fin 1) q)) := by
  unfold k1_pay1
  simp only [shapeCast_self, maximumf_apply, addf_apply, mulf_apply, subf_apply, broadcast_apply,
    Cert.Bridge.LibLayout.broadcastTo_a1_ab_apply, broadcastTo_1b_ab_apply]
  rfl

/-- The row-tiled windows move with the grid point; the per-channel windows stay put. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

set_option maxHeartbeats 4000000 in
/-- What point t writes back is block t of the stage over the arrays as the region finds them. -/
theorem flushed_eq (c : Dev nD) (t : Fin cfg1.N) :
    (dat1 V c).flushed 8 t = ((cfg1.win 8).blk t).view.read (Elt Ideal)
      (arr (V c main_v51) (V c main_v39) (V c main_v28) (V c main_v52) (V c main_v53) (V c main_v54) (V c main_v55) (V c main_v56)) := by
  show (cfg1.win 8).cut (grid1.coords t) ((dat1 V c).after 8 t) = _
  rw [after1_8]
  unfold out1_8
  rw [View.canon_unit_zero zero_off]
  simp only [View.ld_unit_zero (S := S10000x64) zero_off, View.ld_unit_zero (S := S10000x1) zero_off, View.ld_unit_zero (S := S1x64) zero_off]
  obtain ⟨e00, e01, e10, e11, e20, e21, e30, e31, e40, e41, e50, e51, e60, e61, e70, e71, e80, e81⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 6 t) (iblk1 V c 7 t) (iblk1 V c 5 t) (ix2 p q)
    = arr (V c main_v51) (V c main_v39) (V c main_v28) (V c main_v52) (V c main_v53) (V c main_v54) (V c main_v55) (V c main_v56) (((cfg1.win 8).blk t).view.emb (ix2 p q))
  rw [pay_apply]
  have h0 : ((cfg1.win 0).blk t).view.emb (ix2 p q) = ((cfg1.win 8).blk t).view.emb (ix2 p q) := by
    funext a; apply Fin.ext
    match a with
    | ⟨0, _⟩ => show win1_0.index t (0 : Fin 2) * 10000 + 1 * p.val = win1_8.index t (0 : Fin 2) * 10000 + 1 * p.val; omega
    | ⟨1, _⟩ => show win1_0.index t (1 : Fin 2) * 64 + 1 * q.val = win1_8.index t (1 : Fin 2) * 64 + 1 * q.val; omega
  have h1 : ((cfg1.win 1).blk t).view.emb (ix2 p q) = ((cfg1.win 8).blk t).view.emb (ix2 p q) := by
    funext a; apply Fin.ext
    match a with
    | ⟨0, _⟩ => show win1_1.index t (0 : Fin 2) * 10000 + 1 * p.val = win1_8.index t (0 : Fin 2) * 10000 + 1 * p.val; omega
    | ⟨1, _⟩ => show win1_1.index t (1 : Fin 2) * 64 + 1 * q.val = win1_8.index t (1 : Fin 2) * 64 + 1 * q.val; omega
  have h2 : ((cfg1.win 2).blk t).view.emb (ix2 p (0 : Fin 1))
      = ix2 (n0 := 100000) ((((cfg1.win 8).blk t).view.emb (ix2 p q)) 0) (0 : Fin 1) := by
    funext a; apply Fin.ext
    match a with
    | ⟨0, _⟩ => show win1_2.index t (0 : Fin 2) * 10000 + 1 * p.val = win1_8.index t (0 : Fin 2) * 10000 + 1 * p.val; omega
    | ⟨1, _⟩ => show win1_2.index t (1 : Fin 2) * 1 + 1 * 0 = 0; omega
  have h3 : ((cfg1.win 3).blk t).view.emb (ix2 (0 : Fin 1) q)
      = ix2 (0 : Fin 1) (n1 := 64) ((((cfg1.win 8).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_8.index t (1 : Fin 2) * 64 + 1 * q.val; omega
  have h4 : ((cfg1.win 4).blk t).view.emb (ix2 (0 : Fin 1) q)
      = ix2 (0 : Fin 1) (n1 := 64) ((((cfg1.win 8).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 64 + 1 * q.val = win1_8.index t (1 : Fin 2) * 64 + 1 * q.val; omega
  have h5 : ((cfg1.win 5).blk t).view.emb (ix2 (0 : Fin 1) q)
      = ix2 (0 : Fin 1) (n1 := 64) ((((cfg1.win 8).blk t).view.emb (ix2 p q)) 1) := by
    funext a; apply Fin.ext
    match a with
    | ⟨0, _⟩ => show win1_5.index t (0 : Fin 2) * 1 + 1 * 0 = 0; omega
    | ⟨1, _⟩ => show win1_5.index t (1 : Fin 2) * 64 + 1 * q.val = win1_8.index t (1 : Fin 2) * 64 + 1 * q.val; omega
  have h6 : ((cfg1.win 6).blk t).view.emb (ix2 (0 : Fin 1) q)
      = ix2 (0 : Fin 1) (n1 := 64) ((((cfg1.win 8).blk t).view.emb (ix2 p q)) 1) := by
    funext a; apply Fin.ext
    match a with
    | ⟨0, _⟩ => show win1_6.index t (0 : Fin 2) * 1 + 1 * 0 = 0; omega
    | ⟨1, _⟩ => show win1_6.index t (1 : Fin 2) * 64 + 1 * q.val = win1_8.index t (1 : Fin 2) * 64 + 1 * q.val; omega
  have h7 : ((cfg1.win 7).blk t).view.emb (ix2 (0 : Fin 1) q)
      = ix2 (0 : Fin 1) (n1 := 64) ((((cfg1.win 8).blk t).view.emb (ix2 p q)) 1) := by
    funext a; apply Fin.ext
    match a with
    | ⟨0, _⟩ => show win1_7.index t (0 : Fin 2) * 1 + 1 * 0 = 0; omega
    | ⟨1, _⟩ => show win1_7.index t (1 : Fin 2) * 64 + 1 * q.val = win1_8.index t (1 : Fin 2) * 64 + 1 * q.val; omega
  show elem (V c main_v51 (((cfg1.win 0).blk t).view.emb (ix2 p q))) (V c main_v39 (((cfg1.win 1).blk t).view.emb (ix2 p q)))
      (V c main_v28 (((cfg1.win 2).blk t).view.emb (ix2 p (0 : Fin 1)))) (V c main_v52 (((cfg1.win 3).blk t).view.emb (ix2 (0 : Fin 1) q)))
      (V c main_v53 (((cfg1.win 4).blk t).view.emb (ix2 (0 : Fin 1) q))) (V c main_v54 (((cfg1.win 5).blk t).view.emb (ix2 (0 : Fin 1) q)))
      (V c main_v55 (((cfg1.win 6).blk t).view.emb (ix2 (0 : Fin 1) q))) (V c main_v56 (((cfg1.win 7).blk t).view.emb (ix2 (0 : Fin 1) q)))
    = arr (V c main_v51) (V c main_v39) (V c main_v28) (V c main_v52) (V c main_v53) (V c main_v54) (V c main_v55) (V c main_v56)
        (((cfg1.win 8).blk t).view.emb (ix2 p q))
  rw [h0, h1, h2, h3, h4, h5, h6, h7]
  rfl

/-- An index of the output array is in point t's block iff its row lies in the block's ten thousand rows. -/
theorem mem_blk (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v57).slice (win1_8.rect t)).set ↔ _
  rw [View.set_slice_whole, Rect.mem_set_unit]
  exact Iff.rfl

/-- Every row belongs to the block of the point row / 10000. -/
theorem cover (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  refine ⟨⟨(i 0).val / 10000, by show _ < 10; omega⟩, flush1_8 _, ?_⟩
  rw [mem_blk]
  obtain ⟨e00, e01, e10, e11, e20, e21, e30, e31, e40, e41, e50, e51, e60, e61, e70, e71, e80, e81⟩ := idx_facts ⟨(i 0).val / 10000, by show _ < 10; omega⟩
  intro a
  match a with
  | ⟨0, _⟩ => show win1_8.index _ (0 : Fin 2) * 10000 ≤ (i 0).val ∧ (i 0).val < win1_8.index _ (0 : Fin 2) * 10000 + 10000; rw [e80]; show (i 0).val / 10000 * 10000 ≤ _ ∧ _ < (i 0).val / 10000 * 10000 + 10000; omega
  | ⟨1, _⟩ => show win1_8.index _ (1 : Fin 2) * 64 ≤ (i 1).val ∧ (i 1).val < win1_8.index _ (1 : Fin 2) * 64 + 64; rw [e81]; omega

/-- The output array after the region is the stage over the input arrays as the region found them. -/
theorem value (c : Dev nD) : (dat1 V c).arrAt 8 cfg1.N
    = arr (V c main_v51) (V c main_v39) (V c main_v28) (V c main_v52) (V c main_v53) (V c main_v54) (V c main_v55) (V c main_v56) :=
  (dat1 V c).arrAt_eq_of_cover 8 _ (fun t _ => flushed_eq V c t) cover

end Cert.KernelIdeal.Fuse1

end
-- ==== Proof.Layer1.lean ====
/-
  Graph-convolution layer 1 of the idealized kernel against the reference's stages. The kernel computes the layer in two
  regions and a stretch of host operations between them: the linear features lin = h · w (a row-tiled product), the
  aggregated messages agg = scatter-add over edges of lin[src] · coef at dst (host operations, the same as the
  reference's), and the fused stage max (scale · ((agg + lin · self) + bias − mean) · rsqrt (var + ε) + shift, 0). Each
  is shown equal, as a whole array, to the reference's stage of the same name: the product by reading both sides as the
  sum over the contracted axis, the messages because both programs apply the same operations to equal operands, the
  fused stage index by index, where the reference's broadcasts of a channel vector or of the self-loop column read the
  same entries the kernel's staged rows and column hold.
-/
import proofs.«129519_j25572235280972_1_alg».proof.Proof.Gen.KernelIdeal.Frame
import Idealize.ShloMosaic.PureOps.Ideal
import Idealize.ShloMosaic.Lib.StableHlo.Run
import proofs.«129519_j25572235280972_1_alg».proof.Proof.Gen.ReferenceIdeal.Read
import proofs.«129519_j25572235280972_1_alg».proof.Proof.Mat0
import proofs.«129519_j25572235280972_1_alg».proof.Proof.Fuse1
import proofs.«129519_j25572235280972_1_alg».proof.Proof.KeepArgs
import proofs.«129519_j25572235280972_1_alg».proof.Proof.KeepArgsB
import proofs.«129519_j25572235280972_1_alg».proof.Proof.KeepVars
import proofs.«129519_j25572235280972_1_alg».proof.Proof.Host0
import Idealize.ShloMosaic.Lib.ValueIdx
import Idealize.ShloMosaic.Lib.ValueLayout
import Idealize.ShloMosaic.Lib.Pipeline.Value

set_option maxRecDepth 16384

noncomputable section

namespace Cert.KernelIdeal.Layer1

open Idealize.ShloMosaic Idealize.ShloMosaic.TcCoe Idealize.SL.Sem Idealize.ShloMosaic.StableHlo Idealize.ShloMosaic.ValueIdx
open Cert.KernelIdeal Cert.KernelIdeal.Gen Cert.ReferenceIdeal.Read

variable (m : (ℓ : Loc nD τ sig) → Buf (Elt Ideal) ℓ) (ρ : Dev nD → PrngReg)

/-! ## The layer's parameters -/

theorem bias_vec (c : Dev nD) : W1 m ρ c (Proc.devRef .tc main_v30) = val_main_v28 (F := Ideal) (m ((c : Thread nD τ).loc main_arg5)) := Host0.bias_at_1 m ρ c
theorem scale_vec (c : Dev nD) : W1 m ρ c (Proc.devRef .tc main_v32) = val_main_v51 (F := Ideal) (m ((c : Thread nD τ).loc main_arg6)) := Host0.scale_at_1 m ρ c
theorem shift_vec (c : Dev nD) : W1 m ρ c (Proc.devRef .tc main_v34) = val_main_v69 (F := Ideal) (m ((c : Thread nD τ).loc main_arg7)) := Host0.shift_at_1 m ρ c
theorem mean_vec (c : Dev nD) : W1 m ρ c (Proc.devRef .tc main_v36) = val_main_v53 (F := Ideal) (m ((c : Thread nD τ).loc main_arg8)) := Host0.mean_at_1 m ρ c
theorem var_vec (c : Dev nD) : W1 m ρ c (Proc.devRef .tc main_v38) = val_main_v61 (F := Ideal) (m ((c : Thread nD τ).loc main_arg9)) := Host0.var_at_1 m ρ c

/-! ## The linear features -/

theorem lin (c : Dev nD) : W2 m ρ c (Proc.devRef .tc main_v39) = val_main_v29 (F := Ideal) (m ((c : Thread nD τ).loc main_arg0)) (m ((c : Thread nD τ).loc main_arg3)) := by
  refine ((W2_arr m ρ c 2).trans (Mat0.value (V1 m ρ) c)).trans ?_
  have eA : V1 m ρ c main_arg0 = m ((c : Thread nD τ).loc main_arg0) := KeepArgs.arg0_at_1 m ρ c
  have eW : V1 m ρ c main_arg3 = m ((c : Thread nD τ).loc main_arg3) := KeepArgs.arg3_at_1 m ρ c
  rw [eA, eW]
  funext i
  rw [val_main_v29_apply]
  unfold Mat0.prod
  refine Finset.sum_congr rfl fun k _ => ?_
  refine congrArg₂ (fun a b : EReal => a * b) (congrArg _ ?_) (congrArg _ ?_) <;>
    (funext a; match a with | ⟨0, _⟩ => rfl | ⟨1, _⟩ => rfl)

/-! ## The aggregated messages -/

theorem src_at (c : Dev nD) : W2 m ρ c (Proc.devRef .tc main_v1) = val_main_v1 (F := Ideal) (m ((c : Thread nD τ).loc main_arg1)) := (KeepVars.keep_v1_2_1 m ρ c).trans (Host0.src_at_1 m ρ c)
theorem dst_at (c : Dev nD) : W2 m ρ c (Proc.devRef .tc main_v3) = val_main_v3 (F := Ideal) (m ((c : Thread nD τ).loc main_arg1)) := (KeepVars.keep_v3_2_1 m ρ c).trans (Host0.dst_at_1 m ρ c)
theorem coef_at (c : Dev nD) : W2 m ρ c (Proc.devRef .tc main_v26) = val_main_v37 (F := Ideal) (m ((c : Thread nD τ).loc main_arg1)) := (KeepVars.keep_v26_2_1 m ρ c).trans (Host0.coef_at_1 m ρ c)
theorem self_at (c : Dev nD) : W3 m ρ c (Proc.devRef .tc main_v28) = val_main_v43 (F := Ideal) (m ((c : Thread nD τ).loc main_arg1)) := (KeepVars.keep_v28_3_1 m ρ c).trans (Host0.self_at_1 m ρ c)

theorem agg (c : Dev nD) : W3 m ρ c (Proc.devRef .tc main_v51) = val_main_v42 (F := Ideal) (m ((c : Thread nD τ).loc main_arg0)) (m ((c : Thread nD τ).loc main_arg1)) (m ((c : Thread nD τ).loc main_arg3)) := by
  show StableHlo.after hostOps1 (W2 m ρ c) (Proc.devRef .tc main_v51) = _
  after_results_simp
  rw [lin m ρ c, src_at m ρ c, dst_at m ρ c, coef_at m ρ c]
  rfl

/-! ## The staged parameter rows -/

theorem bias_row (c : Dev nD) (j : S1x64.Idx) : W3 m ρ c (Proc.devRef .tc main_v52) j = val_main_v28 (F := Ideal) (m ((c : Thread nD τ).loc main_arg5)) (ix1 (n := 64) (j 1)) := by
  have h : W3 m ρ c (Proc.devRef .tc main_v52) = shapeCast S1x64 (W2 m ρ c (Proc.devRef .tc main_v30)) shapeCasts_S64_S1x64 := by
    show StableHlo.after hostOps1 (W2 m ρ c) (Proc.devRef .tc main_v52) = _
    after_results_simp <;> rfl
  rw [h, (KeepVars.keep_v30_2_1 m ρ c).trans (bias_vec m ρ c)]
  obtain ⟨u, q, rfl⟩ : ∃ (u : Fin 1) (q : Fin 64), j = ix2 u q := ⟨j 0, j 1, eq_ix2 j⟩
  exact shapeCast_a_1a_apply _ _ u q
theorem scale_row (c : Dev nD) (j : S1x64.Idx) : W3 m ρ c (Proc.devRef .tc main_v53) j = val_main_v51 (F := Ideal) (m ((c : Thread nD τ).loc main_arg6)) (ix1 (n := 64) (j 1)) := by
  have h : W3 m ρ c (Proc.devRef .tc main_v53) = shapeCast S1x64 (W2 m ρ c (Proc.devRef .tc main_v32)) shapeCasts_S64_S1x64 := by
    show StableHlo.after hostOps1 (W2 m ρ c) (Proc.devRef .tc main_v53) = _
    after_results_simp <;> rfl
  rw [h, (KeepVars.keep_v32_2_1 m ρ c).trans (scale_vec m ρ c)]
  obtain ⟨u, q, rfl⟩ : ∃ (u : Fin 1) (q : Fin 64), j = ix2 u q := ⟨j 0, j 1, eq_ix2 j⟩
  exact shapeCast_a_1a_apply _ _ u q
theorem shift_row (c : Dev nD) (j : S1x64.Idx) : W3 m ρ c (Proc.devRef .tc main_v54) j = val_main_v69 (F := Ideal) (m ((c : Thread nD τ).loc main_arg7)) (ix1 (n := 64) (j 1)) := by
  have h : W3 m ρ c (Proc.devRef .tc main_v54) = shapeCast S1x64 (W2 m ρ c (Proc.devRef .tc main_v34)) shapeCasts_S64_S1x64 := by
    show StableHlo.after hostOps1 (W2 m ρ c) (Proc.devRef .tc main_v54) = _
    after_results_simp <;> rfl
  rw [h, (KeepVars.keep_v34_2_1 m ρ c).trans (shift_vec m ρ c)]
  obtain ⟨u, q, rfl⟩ : ∃ (u : Fin 1) (q : Fin 64), j = ix2 u q := ⟨j 0, j 1, eq_ix2 j⟩
  exact shapeCast_a_1a_apply _ _ u q
theorem mean_row (c : Dev nD) (j : S1x64.Idx) : W3 m ρ c (Proc.devRef .tc main_v55) j = val_main_v53 (F := Ideal) (m ((c : Thread nD τ).loc main_arg8)) (ix1 (n := 64) (j 1)) := by
  have h : W3 m ρ c (Proc.devRef .tc main_v55) = shapeCast S1x64 (W2 m ρ c (Proc.devRef .tc main_v36)) shapeCasts_S64_S1x64 := by
    show StableHlo.after hostOps1 (W2 m ρ c) (Proc.devRef .tc main_v55) = _
    after_results_simp <;> rfl
  rw [h, (KeepVars.keep_v36_2_1 m ρ c).trans (mean_vec m ρ c)]
  obtain ⟨u, q, rfl⟩ : ∃ (u : Fin 1) (q : Fin 64), j = ix2 u q := ⟨j 0, j 1, eq_ix2 j⟩
  exact shapeCast_a_1a_apply _ _ u q
theorem var_row (c : Dev nD) (j : S1x64.Idx) : W3 m ρ c (Proc.devRef .tc main_v56) j = val_main_v61 (F := Ideal) (m ((c : Thread nD τ).loc main_arg9)) (ix1 (n := 64) (j 1)) := by
  have h : W3 m ρ c (Proc.devRef .tc main_v56) = shapeCast S1x64 (W2 m ρ c (Proc.devRef .tc main_v38)) shapeCasts_S64_S1x64 := by
    show StableHlo.after hostOps1 (W2 m ρ c) (Proc.devRef .tc main_v56) = _
    after_results_simp <;> rfl
  rw [h, (KeepVars.keep_v38_2_1 m ρ c).trans (var_vec m ρ c)]
  obtain ⟨u, q, rfl⟩ : ∃ (u : Fin 1) (q : Fin 64), j = ix2 u q := ⟨j 0, j 1, eq_ix2 j⟩
  exact shapeCast_a_1a_apply _ _ u q

/-! ## The reference's broadcasts, read at an index -/

theorem ref_bias (c : Dev nD) (i : S100000x64.Idx) : val_main_v48 (F := Ideal) (m ((c : Thread nD τ).loc main_arg5)) i = val_main_v28 (F := Ideal) (m ((c : Thread nD τ).loc main_arg5)) (ix1 (n := 64) (i 1)) := by
  rw [val_main_v48_apply, val_main_v47_apply]
  exact congrArg _ (funext fun a => match a with | ⟨0, _⟩ => rfl)
theorem ref_scale (c : Dev nD) (i : S100000x64.Idx) : val_main_v58 (F := Ideal) (m ((c : Thread nD τ).loc main_arg6)) i = val_main_v51 (F := Ideal) (m ((c : Thread nD τ).loc main_arg6)) (ix1 (n := 64) (i 1)) := by
  rw [val_main_v58_apply, val_main_v57_apply]
  exact congrArg _ (funext fun a => match a with | ⟨0, _⟩ => rfl)
theorem ref_mean (c : Dev nD) (i : S100000x64.Idx) : val_main_v55 (F := Ideal) (m ((c : Thread nD τ).loc main_arg8)) i = val_main_v53 (F := Ideal) (m ((c : Thread nD τ).loc main_arg8)) (ix1 (n := 64) (i 1)) := by
  rw [val_main_v55_apply, val_main_v54_apply]
  exact congrArg _ (funext fun a => match a with | ⟨0, _⟩ => rfl)
theorem ref_shift (c : Dev nD) (i : S100000x64.Idx) : val_main_v71 (F := Ideal) (m ((c : Thread nD τ).loc main_arg7)) i = val_main_v69 (F := Ideal) (m ((c : Thread nD τ).loc main_arg7)) (ix1 (n := 64) (i 1)) := by
  rw [val_main_v71_apply, val_main_v70_apply]
  exact congrArg _ (funext fun a => match a with | ⟨0, _⟩ => rfl)
theorem ref_rstd (c : Dev nD) (i : S100000x64.Idx) : val_main_v66 (F := Ideal) (m ((c : Thread nD τ).loc main_arg9)) i = Ideal.rsqrt (val_main_v61 (F := Ideal) (m ((c : Thread nD τ).loc main_arg9)) (ix1 (n := 64) (i 1)) + Ideal.ofBits .f32 0x3727C5AC#32) := by
  rw [val_main_v66_apply, val_main_v65_apply, val_main_v64_apply, val_main_v63_apply, val_main_v62_apply, val_main_cst_8_apply]
  have e : idx_main_v65 (idx_main_v66 i) = ix1 (n := 64) (i 1) := funext fun a => match a with | ⟨0, _⟩ => rfl
  rw [e]
  rfl
theorem ref_self (c : Dev nD) (i : S100000x64.Idx) : val_main_v44 (F := Ideal) (m ((c : Thread nD τ).loc main_arg1)) i = val_main_v43 (F := Ideal) (m ((c : Thread nD τ).loc main_arg1)) (ix2 (n0 := 100000) (i 0) (0 : Fin 1)) := by
  rw [val_main_v44_apply]
  exact congrArg _ (funext fun a => match a with | ⟨0, _⟩ => rfl | ⟨1, _⟩ => rfl)

/-! ## The fused stage -/

theorem act (c : Dev nD) : W4 m ρ c (Proc.devRef .tc main_v57) = val_main_v73 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 8).trans (Fuse1.value (V3 m ρ) c)).trans ?_
  have e0 : V3 m ρ c main_v51 = val_main_v42 (F := Ideal) (m ((c : Thread nD τ).loc main_arg0)) (m ((c : Thread nD τ).loc main_arg1)) (m ((c : Thread nD τ).loc main_arg3)) := agg m ρ c
  have e1 : V3 m ρ c main_v39 = val_main_v29 (F := Ideal) (m ((c : Thread nD τ).loc main_arg0)) (m ((c : Thread nD τ).loc main_arg3)) := (KeepVars.keep_v39_3_2 m ρ c).trans (lin m ρ c)
  have e2 : V3 m ρ c main_v28 = val_main_v43 (F := Ideal) (m ((c : Thread nD τ).loc main_arg1)) := self_at m ρ c
  rw [e0, e1, e2]
  funext i
  unfold Fuse1.arr
  have rb := bias_row m ρ c; have rg := scale_row m ρ c; have rt := shift_row m ρ c; have rm := mean_row m ρ c; have rv := var_row m ρ c
  rw [show V3 m ρ c main_v52 (ix2 (0 : Fin 1) (n1 := 64) (i 1)) = _ from rb _, show V3 m ρ c main_v53 (ix2 (0 : Fin 1) (n1 := 64) (i 1)) = _ from rg _,
    show V3 m ρ c main_v54 (ix2 (0 : Fin 1) (n1 := 64) (i 1)) = _ from rt _, show V3 m ρ c main_v55 (ix2 (0 : Fin 1) (n1 := 64) (i 1)) = _ from rm _,
    show V3 m ρ c main_v56 (ix2 (0 : Fin 1) (n1 := 64) (i 1)) = _ from rv _]
  rw [val_main_v73_apply, val_main_v72_apply, val_main_v67_apply, val_main_v59_apply, val_main_v56_apply, val_main_v49_apply, val_main_v46_apply, val_main_v45_apply,
    ref_bias m c, ref_scale m c, ref_mean m c, ref_shift m c, ref_rstd m c, ref_self m c, val_main_call0_v0_apply, val_main_call0_cst_apply]
  rfl

end Cert.KernelIdeal.Layer1

end
-- ==== Proof.Layer2.lean ====
/-
  Graph-convolution layer 2 of the idealized kernel against the reference's stages. The kernel computes the layer in two
  regions and a stretch of host operations between them: the linear features lin = h · w (a row-tiled product), the
  aggregated messages agg = scatter-add over edges of lin[src] · coef at dst (host operations, the same as the
  reference's), and the fused stage max (scale · ((agg + lin · self) + bias − mean) · rsqrt (var + ε) + shift, 0). Each
  is shown equal, as a whole array, to the reference's stage of the same name: the product by reading both sides as the
  sum over the contracted axis, the messages because both programs apply the same operations to equal operands, the
  fused stage index by index, where the reference's broadcasts of a channel vector or of the self-loop column read the
  same entries the kernel's staged rows and column hold.
-/
import proofs.«129519_j25572235280972_1_alg».proof.Proof.Gen.KernelIdeal.Frame
import Idealize.ShloMosaic.PureOps.Ideal
import Idealize.ShloMosaic.Lib.StableHlo.Run
import proofs.«129519_j25572235280972_1_alg».proof.Proof.Gen.ReferenceIdeal.Read
import proofs.«129519_j25572235280972_1_alg».proof.Proof.Mat2
import proofs.«129519_j25572235280972_1_alg».proof.Proof.Fuse3
import proofs.«129519_j25572235280972_1_alg».proof.Proof.KeepArgs
import proofs.«129519_j25572235280972_1_alg».proof.Proof.KeepArgsB
import proofs.«129519_j25572235280972_1_alg».proof.Proof.KeepVars
import proofs.«129519_j25572235280972_1_alg».proof.Proof.Host0
import proofs.«129519_j25572235280972_1_alg».proof.Proof.Layer1
import Idealize.ShloMosaic.Lib.ValueIdx
import Idealize.ShloMosaic.Lib.ValueLayout
import Idealize.ShloMosaic.Lib.Pipeline.Value

set_option maxRecDepth 16384

noncomputable section

namespace Cert.KernelIdeal.Layer2

open Idealize.ShloMosaic Idealize.ShloMosaic.TcCoe Idealize.SL.Sem Idealize.ShloMosaic.StableHlo Idealize.ShloMosaic.ValueIdx
open Cert.KernelIdeal Cert.KernelIdeal.Gen Cert.ReferenceIdeal.Read

variable (m : (ℓ : Loc nD τ sig) → Buf (Elt Ideal) ℓ) (ρ : Dev nD → PrngReg)

/-! ## The layer's parameters -/

theorem bias_vec (c : Dev nD) : W5 m ρ c (Proc.devRef .tc main_v61) = val_main_v77 (F := Ideal) (m ((c : Thread nD τ).loc main_arg5)) := by
  show StableHlo.after hostOps2 (W4 m ρ c) (Proc.devRef .tc main_v61) = _
  after_results_simp
  rw [KeepArgs.arg5_at_4 m ρ c]
  rfl
theorem scale_vec (c : Dev nD) : W5 m ρ c (Proc.devRef .tc main_v63) = val_main_v100 (F := Ideal) (m ((c : Thread nD τ).loc main_arg6)) := by
  show StableHlo.after hostOps2 (W4 m ρ c) (Proc.devRef .tc main_v63) = _
  after_results_simp
  rw [KeepArgs.arg6_at_4 m ρ c]
  rfl
theorem shift_vec (c : Dev nD) : W5 m ρ c (Proc.devRef .tc main_v65) = val_main_v118 (F := Ideal) (m ((c : Thread nD τ).loc main_arg7)) := by
  show StableHlo.after hostOps2 (W4 m ρ c) (Proc.devRef .tc main_v65) = _
  after_results_simp
  rw [KeepArgs.arg7_at_4 m ρ c]
  rfl
theorem mean_vec (c : Dev nD) : W5 m ρ c (Proc.devRef .tc main_v67) = val_main_v102 (F := Ideal) (m ((c : Thread nD τ).loc main_arg8)) := by
  show StableHlo.after hostOps2 (W4 m ρ c) (Proc.devRef .tc main_v67) = _
  after_results_simp
  rw [KeepArgs.arg8_at_4 m ρ c]
  rfl
theorem var_vec (c : Dev nD) : W5 m ρ c (Proc.devRef .tc main_v69) = val_main_v110 (F := Ideal) (m ((c : Thread nD τ).loc main_arg9)) := by
  show StableHlo.after hostOps2 (W4 m ρ c) (Proc.devRef .tc main_v69) = _
  after_results_simp
  rw [KeepArgs.arg9_at_4 m ρ c]
  rfl
/-- The layer's weight matrix, a slice of the stacked weights. -/
theorem weight (c : Dev nD) : W5 m ρ c (Proc.devRef .tc main_v59) = val_main_v75 (F := Ideal) (m ((c : Thread nD τ).loc main_arg4)) := by
  show StableHlo.after hostOps2 (W4 m ρ c) (Proc.devRef .tc main_v59) = _
  after_results_simp
  rw [KeepArgs.arg4_at_4 m ρ c]
  rfl

/-! ## The linear features -/

theorem lin (c : Dev nD) : W6 m ρ c (Proc.devRef .tc main_v70) = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W6_arr m ρ c 2).trans (Mat2.value (V5 m ρ) c)).trans ?_
  have eA : V5 m ρ c main_v57 = val_main_v73 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := (KeepVars.keep_v57_5_4 m ρ c).trans (Layer1.act m ρ c)
  have eW : V5 m ρ c main_v59 = val_main_v75 (F := Ideal) (m ((c : Thread nD τ).loc main_arg4)) := weight m ρ c
  rw [eA, eW]
  funext i
  rw [val_main_v78_apply]
  unfold Mat2.prod
  refine Finset.sum_congr rfl fun k _ => ?_
  refine congrArg₂ (fun a b : EReal => a * b) (congrArg _ ?_) (congrArg _ ?_) <;>
    (funext a; match a with | ⟨0, _⟩ => rfl | ⟨1, _⟩ => rfl)

/-! ## The aggregated messages -/

theorem src_at (c : Dev nD) : W6 m ρ c (Proc.devRef .tc main_v1) = val_main_v1 (F := Ideal) (m ((c : Thread nD τ).loc main_arg1)) := ((KeepVars.keep_v1_6_2 m ρ c).trans (KeepVars.keep_v1_2_1 m ρ c)).trans (Host0.src_at_1 m ρ c)
theorem dst_at (c : Dev nD) : W6 m ρ c (Proc.devRef .tc main_v3) = val_main_v3 (F := Ideal) (m ((c : Thread nD τ).loc main_arg1)) := ((KeepVars.keep_v3_6_2 m ρ c).trans (KeepVars.keep_v3_2_1 m ρ c)).trans (Host0.dst_at_1 m ρ c)
theorem coef_at (c : Dev nD) : W6 m ρ c (Proc.devRef .tc main_v26) = val_main_v37 (F := Ideal) (m ((c : Thread nD τ).loc main_arg1)) := ((KeepVars.keep_v26_6_2 m ρ c).trans (KeepVars.keep_v26_2_1 m ρ c)).trans (Host0.coef_at_1 m ρ c)
theorem self_at (c : Dev nD) : W7 m ρ c (Proc.devRef .tc main_v28) = val_main_v92 (F := Ideal) (m ((c : Thread nD τ).loc main_arg1)) := ((KeepVars.keep_v28_7_3 m ρ c).trans (KeepVars.keep_v28_3_1 m ρ c)).trans (Host0.self_at_1 m ρ c)

theorem agg (c : Dev nD) : W7 m ρ c (Proc.devRef .tc main_v82) = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps3 (W6 m ρ c) (Proc.devRef .tc main_v82) = _
  after_results_simp
  rw [lin m ρ c, src_at m ρ c, dst_at m ρ c, coef_at m ρ c]
  rfl

/-! ## The staged parameter rows -/

theorem bias_row (c : Dev nD) (j : S1x64.Idx) : W7 m ρ c (Proc.devRef .tc main_v83) j = val_main_v77 (F := Ideal) (m ((c : Thread nD τ).loc main_arg5)) (ix1 (n := 64) (j 1)) := by
  have h : W7 m ρ c (Proc.devRef .tc main_v83) = shapeCast S1x64 (W6 m ρ c (Proc.devRef .tc main_v61)) shapeCasts_S64_S1x64 := by
    show StableHlo.after hostOps3 (W6 m ρ c) (Proc.devRef .tc main_v83) = _
    after_results_simp <;> rfl
  rw [h, (KeepVars.keep_v61_6_5 m ρ c).trans (bias_vec m ρ c)]
  obtain ⟨u, q, rfl⟩ : ∃ (u : Fin 1) (q : Fin 64), j = ix2 u q := ⟨j 0, j 1, eq_ix2 j⟩
  exact shapeCast_a_1a_apply _ _ u q
theorem scale_row (c : Dev nD) (j : S1x64.Idx) : W7 m ρ c (Proc.devRef .tc main_v84) j = val_main_v100 (F := Ideal) (m ((c : Thread nD τ).loc main_arg6)) (ix1 (n := 64) (j 1)) := by
  have h : W7 m ρ c (Proc.devRef .tc main_v84) = shapeCast S1x64 (W6 m ρ c (Proc.devRef .tc main_v63)) shapeCasts_S64_S1x64 := by
    show StableHlo.after hostOps3 (W6 m ρ c) (Proc.devRef .tc main_v84) = _
    after_results_simp <;> rfl
  rw [h, (KeepVars.keep_v63_6_5 m ρ c).trans (scale_vec m ρ c)]
  obtain ⟨u, q, rfl⟩ : ∃ (u : Fin 1) (q : Fin 64), j = ix2 u q := ⟨j 0, j 1, eq_ix2 j⟩
  exact shapeCast_a_1a_apply _ _ u q
theorem shift_row (c : Dev nD) (j : S1x64.Idx) : W7 m ρ c (Proc.devRef .tc main_v85) j = val_main_v118 (F := Ideal) (m ((c : Thread nD τ).loc main_arg7)) (ix1 (n := 64) (j 1)) := by
  have h : W7 m ρ c (Proc.devRef .tc main_v85) = shapeCast S1x64 (W6 m ρ c (Proc.devRef .tc main_v65)) shapeCasts_S64_S1x64 := by
    show StableHlo.after hostOps3 (W6 m ρ c) (Proc.devRef .tc main_v85) = _
    after_results_simp <;> rfl
  rw [h, (KeepVars.keep_v65_6_5 m ρ c).trans (shift_vec m ρ c)]
  obtain ⟨u, q, rfl⟩ : ∃ (u : Fin 1) (q : Fin 64), j = ix2 u q := ⟨j 0, j 1, eq_ix2 j⟩
  exact shapeCast_a_1a_apply _ _ u q
theorem mean_row (c : Dev nD) (j : S1x64.Idx) : W7 m ρ c (Proc.devRef .tc main_v86) j = val_main_v102 (F := Ideal) (m ((c : Thread nD τ).loc main_arg8)) (ix1 (n := 64) (j 1)) := by
  have h : W7 m ρ c (Proc.devRef .tc main_v86) = shapeCast S1x64 (W6 m ρ c (Proc.devRef .tc main_v67)) shapeCasts_S64_S1x64 := by
    show StableHlo.after hostOps3 (W6 m ρ c) (Proc.devRef .tc main_v86) = _
    after_results_simp <;> rfl
  rw [h, (KeepVars.keep_v67_6_5 m ρ c).trans (mean_vec m ρ c)]
  obtain ⟨u, q, rfl⟩ : ∃ (u : Fin 1) (q : Fin 64), j = ix2 u q := ⟨j 0, j 1, eq_ix2 j⟩
  exact shapeCast_a_1a_apply _ _ u q
theorem var_row (c : Dev nD) (j : S1x64.Idx) : W7 m ρ c (Proc.devRef .tc main_v87) j = val_main_v110 (F := Ideal) (m ((c : Thread nD τ).loc main_arg9)) (ix1 (n := 64) (j 1)) := by
  have h : W7 m ρ c (Proc.devRef .tc main_v87) = shapeCast S1x64 (W6 m ρ c (Proc.devRef .tc main_v69)) shapeCasts_S64_S1x64 := by
    show StableHlo.after hostOps3 (W6 m ρ c) (Proc.devRef .tc main_v87) = _
    after_results_simp <;> rfl
  rw [h, (KeepVars.keep_v69_6_5 m ρ c).trans (var_vec m ρ c)]
  obtain ⟨u, q, rfl⟩ : ∃ (u : Fin 1) (q : Fin 64), j = ix2 u q := ⟨j 0, j 1, eq_ix2 j⟩
  exact shapeCast_a_1a_apply _ _ u q

/-! ## The reference's broadcasts, read at an index -/

theorem ref_bias (c : Dev nD) (i : S100000x64.Idx) : val_main_v97 (F := Ideal) (m ((c : Thread nD τ).loc main_arg5)) i = val_main_v77 (F := Ideal) (m ((c : Thread nD τ).loc main_arg5)) (ix1 (n := 64) (i 1)) := by
  rw [val_main_v97_apply, val_main_v96_apply]
  exact congrArg _ (funext fun a => match a with | ⟨0, _⟩ => rfl)
theorem ref_scale (c : Dev nD) (i : S100000x64.Idx) : val_main_v107 (F := Ideal) (m ((c : Thread nD τ).loc main_arg6)) i = val_main_v100 (F := Ideal) (m ((c : Thread nD τ).loc main_arg6)) (ix1 (n := 64) (i 1)) := by
  rw [val_main_v107_apply, val_main_v106_apply]
  exact congrArg _ (funext fun a => match a with | ⟨0, _⟩ => rfl)
theorem ref_mean (c : Dev nD) (i : S100000x64.Idx) : val_main_v104 (F := Ideal) (m ((c : Thread nD τ).loc main_arg8)) i = val_main_v102 (F := Ideal) (m ((c : Thread nD τ).loc main_arg8)) (ix1 (n := 64) (i 1)) := by
  rw [val_main_v104_apply, val_main_v103_apply]
  exact congrArg _ (funext fun a => match a with | ⟨0, _⟩ => rfl)
theorem ref_shift (c : Dev nD) (i : S100000x64.Idx) : val_main_v120 (F := Ideal) (m ((c : Thread nD τ).loc main_arg7)) i = val_main_v118 (F := Ideal) (m ((c : Thread nD τ).loc main_arg7)) (ix1 (n := 64) (i 1)) := by
  rw [val_main_v120_apply, val_main_v119_apply]
  exact congrArg _ (funext fun a => match a with | ⟨0, _⟩ => rfl)
theorem ref_rstd (c : Dev nD) (i : S100000x64.Idx) : val_main_v115 (F := Ideal) (m ((c : Thread nD τ).loc main_arg9)) i = Ideal.rsqrt (val_main_v110 (F := Ideal) (m ((c : Thread nD τ).loc main_arg9)) (ix1 (n := 64) (i 1)) + Ideal.ofBits .f32 0x3727C5AC#32) := by
  rw [val_main_v115_apply, val_main_v114_apply, val_main_v113_apply, val_main_v112_apply, val_main_v111_apply, val_main_cst_12_apply]
  have e : idx_main_v114 (idx_main_v115 i) = ix1 (n := 64) (i 1) := funext fun a => match a with | ⟨0, _⟩ => rfl
  rw [e]
  rfl
theorem ref_self (c : Dev nD) (i : S100000x64.Idx) : val_main_v93 (F := Ideal) (m ((c : Thread nD τ).loc main_arg1)) i = val_main_v92 (F := Ideal) (m ((c : Thread nD τ).loc main_arg1)) (ix2 (n0 := 100000) (i 0) (0 : Fin 1)) := by
  rw [val_main_v93_apply]
  exact congrArg _ (funext fun a => match a with | ⟨0, _⟩ => rfl | ⟨1, _⟩ => rfl)

/-! ## The fused stage -/

theorem act (c : Dev nD) : W8 m ρ c (Proc.devRef .tc main_v88) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W8_arr m ρ c 8).trans (Fuse3.value (V7 m ρ) c)).trans ?_
  have e0 : V7 m ρ c main_v82 = val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := agg m ρ c
  have e1 : V7 m ρ c main_v70 = val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (KeepVars.keep_v70_7_6 m ρ c).trans (lin m ρ c)
  have e2 : V7 m ρ c main_v28 = val_main_v92 (F := Ideal) (m ((c : Thread nD τ).loc main_arg1)) := self_at m ρ c
  rw [e0, e1, e2]
  funext i
  unfold Fuse3.arr
  have rb := bias_row m ρ c; have rg := scale_row m ρ c; have rt := shift_row m ρ c; have rm := mean_row m ρ c; have rv := var_row m ρ c
  rw [show V7 m ρ c main_v83 (ix2 (0 : Fin 1) (n1 := 64) (i 1)) = _ from rb _, show V7 m ρ c main_v84 (ix2 (0 : Fin 1) (n1 := 64) (i 1)) = _ from rg _,
    show V7 m ρ c main_v85 (ix2 (0 : Fin 1) (n1 := 64) (i 1)) = _ from rt _, show V7 m ρ c main_v86 (ix2 (0 : Fin 1) (n1 := 64) (i 1)) = _ from rm _,
    show V7 m ρ c main_v87 (ix2 (0 : Fin 1) (n1 := 64) (i 1)) = _ from rv _]
  rw [val_main_v122_apply, val_main_v121_apply, val_main_v116_apply, val_main_v108_apply, val_main_v105_apply, val_main_v98_apply, val_main_v95_apply, val_main_v94_apply,
    ref_bias m c, ref_scale m c, ref_mean m c, ref_shift m c, ref_rstd m c, ref_self m c, val_main_call1_v0_apply, val_main_call1_cst_apply]
  rfl

end Cert.KernelIdeal.Layer2

end
-- ==== Proof.Layer3.lean ====
/-
  Graph-convolution layer 3 of the idealized kernel against the reference's stages. The kernel computes the layer in two
  regions and a stretch of host operations between them: the linear features lin = h · w (a row-tiled product), the
  aggregated messages agg = scatter-add over edges of lin[src] · coef at dst (host operations, the same as the
  reference's), and the fused stage max (scale · ((agg + lin · self) + bias − mean) · rsqrt (var + ε) + shift, 0). Each
  is shown equal, as a whole array, to the reference's stage of the same name: the product by reading both sides as the
  sum over the contracted axis, the messages because both programs apply the same operations to equal operands, the
  fused stage index by index, where the reference's broadcasts of a channel vector or of the self-loop column read the
  same entries the kernel's staged rows and column hold.
-/
import proofs.«129519_j25572235280972_1_alg».proof.Proof.Gen.KernelIdeal.Frame
import Idealize.ShloMosaic.PureOps.Ideal
import Idealize.ShloMosaic.Lib.StableHlo.Run
import proofs.«129519_j25572235280972_1_alg».proof.Proof.Gen.ReferenceIdeal.Read
import proofs.«129519_j25572235280972_1_alg».proof.Proof.Mat4
import proofs.«129519_j25572235280972_1_alg».proof.Proof.Fuse5
import proofs.«129519_j25572235280972_1_alg».proof.Proof.KeepArgs
import proofs.«129519_j25572235280972_1_alg».proof.Proof.KeepArgsB
import proofs.«129519_j25572235280972_1_alg».proof.Proof.KeepVars
import proofs.«129519_j25572235280972_1_alg».proof.Proof.Host0
import proofs.«129519_j25572235280972_1_alg».proof.Proof.Layer2
import Idealize.ShloMosaic.Lib.ValueIdx
import Idealize.ShloMosaic.Lib.ValueLayout
import Idealize.ShloMosaic.Lib.Pipeline.Value

set_option maxRecDepth 16384

noncomputable section

namespace Cert.KernelIdeal.Layer3

open Idealize.ShloMosaic Idealize.ShloMosaic.TcCoe Idealize.SL.Sem Idealize.ShloMosaic.StableHlo Idealize.ShloMosaic.ValueIdx
open Cert.KernelIdeal Cert.KernelIdeal.Gen Cert.ReferenceIdeal.Read

variable (m : (ℓ : Loc nD τ sig) → Buf (Elt Ideal) ℓ) (ρ : Dev nD → PrngReg)

/-! ## The layer's parameters -/

theorem bias_vec (c : Dev nD) : W9 m ρ c (Proc.devRef .tc main_v92) = val_main_v126 (F := Ideal) (m ((c : Thread nD τ).loc main_arg5)) := by
  show StableHlo.after hostOps4 (W8 m ρ c) (Proc.devRef .tc main_v92) = _
  after_results_simp
  rw [KeepArgsB.arg5_at_8 m ρ c]
  rfl
theorem scale_vec (c : Dev nD) : W9 m ρ c (Proc.devRef .tc main_v94) = val_main_v149 (F := Ideal) (m ((c : Thread nD τ).loc main_arg6)) := by
  show StableHlo.after hostOps4 (W8 m ρ c) (Proc.devRef .tc main_v94) = _
  after_results_simp
  rw [KeepArgsB.arg6_at_8 m ρ c]
  rfl
theorem shift_vec (c : Dev nD) : W9 m ρ c (Proc.devRef .tc main_v96) = val_main_v167 (F := Ideal) (m ((c : Thread nD τ).loc main_arg7)) := by
  show StableHlo.after hostOps4 (W8 m ρ c) (Proc.devRef .tc main_v96) = _
  after_results_simp
  rw [KeepArgsB.arg7_at_8 m ρ c]
  rfl
theorem mean_vec (c : Dev nD) : W9 m ρ c (Proc.devRef .tc main_v98) = val_main_v151 (F := Ideal) (m ((c : Thread nD τ).loc main_arg8)) := by
  show StableHlo.after hostOps4 (W8 m ρ c) (Proc.devRef .tc main_v98) = _
  after_results_simp
  rw [KeepArgsB.arg8_at_8 m ρ c]
  rfl
theorem var_vec (c : Dev nD) : W9 m ρ c (Proc.devRef .tc main_v100) = val_main_v159 (F := Ideal) (m ((c : Thread nD τ).loc main_arg9)) := by
  show StableHlo.after hostOps4 (W8 m ρ c) (Proc.devRef .tc main_v100) = _
  after_results_simp
  rw [KeepArgsB.arg9_at_8 m ρ c]
  rfl
/-- The layer's weight matrix, a slice of the stacked weights. -/
theorem weight (c : Dev nD) : W9 m ρ c (Proc.devRef .tc main_v90) = val_main_v124 (F := Ideal) (m ((c : Thread nD τ).loc main_arg4)) := by
  show StableHlo.after hostOps4 (W8 m ρ c) (Proc.devRef .tc main_v90) = _
  after_results_simp
  rw [KeepArgsB.arg4_at_8 m ρ c]
  rfl

/-! ## The linear features -/

theorem lin (c : Dev nD) : W10 m ρ c (Proc.devRef .tc main_v101) = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W10_arr m ρ c 2).trans (Mat4.value (V9 m ρ) c)).trans ?_
  have eA : V9 m ρ c main_v88 = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (KeepVars.keep_v88_9_8 m ρ c).trans (Layer2.act m ρ c)
  have eW : V9 m ρ c main_v90 = val_main_v124 (F := Ideal) (m ((c : Thread nD τ).loc main_arg4)) := weight m ρ c
  rw [eA, eW]
  funext i
  rw [val_main_v127_apply]
  unfold Mat4.prod
  refine Finset.sum_congr rfl fun k _ => ?_
  refine congrArg₂ (fun a b : EReal => a * b) (congrArg _ ?_) (congrArg _ ?_) <;>
    (funext a; match a with | ⟨0, _⟩ => rfl | ⟨1, _⟩ => rfl)

/-! ## The aggregated messages -/

theorem src_at (c : Dev nD) : W10 m ρ c (Proc.devRef .tc main_v1) = val_main_v1 (F := Ideal) (m ((c : Thread nD τ).loc main_arg1)) := ((KeepVars.keep_v1_10_6 m ρ c).trans ((KeepVars.keep_v1_6_2 m ρ c).trans (KeepVars.keep_v1_2_1 m ρ c))).trans (Host0.src_at_1 m ρ c)
theorem dst_at (c : Dev nD) : W10 m ρ c (Proc.devRef .tc main_v3) = val_main_v3 (F := Ideal) (m ((c : Thread nD τ).loc main_arg1)) := ((KeepVars.keep_v3_10_6 m ρ c).trans ((KeepVars.keep_v3_6_2 m ρ c).trans (KeepVars.keep_v3_2_1 m ρ c))).trans (Host0.dst_at_1 m ρ c)
theorem coef_at (c : Dev nD) : W10 m ρ c (Proc.devRef .tc main_v26) = val_main_v37 (F := Ideal) (m ((c : Thread nD τ).loc main_arg1)) := ((KeepVars.keep_v26_10_6 m ρ c).trans ((KeepVars.keep_v26_6_2 m ρ c).trans (KeepVars.keep_v26_2_1 m ρ c))).trans (Host0.coef_at_1 m ρ c)
theorem self_at (c : Dev nD) : W11 m ρ c (Proc.devRef .tc main_v28) = val_main_v141 (F := Ideal) (m ((c : Thread nD τ).loc main_arg1)) := ((KeepVars.keep_v28_11_7 m ρ c).trans ((KeepVars.keep_v28_7_3 m ρ c).trans (KeepVars.keep_v28_3_1 m ρ c))).trans (Host0.self_at_1 m ρ c)

theorem agg (c : Dev nD) : W11 m ρ c (Proc.devRef .tc main_v113) = val_main_v140 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W10 m ρ c) (Proc.devRef .tc main_v113) = _
  after_results_simp
  rw [lin m ρ c, src_at m ρ c, dst_at m ρ c, coef_at m ρ c]
  rfl

/-! ## The staged parameter rows -/

theorem bias_row (c : Dev nD) (j : S1x64.Idx) : W11 m ρ c (Proc.devRef .tc main_v114) j = val_main_v126 (F := Ideal) (m ((c : Thread nD τ).loc main_arg5)) (ix1 (n := 64) (j 1)) := by
  have h : W11 m ρ c (Proc.devRef .tc main_v114) = shapeCast S1x64 (W10 m ρ c (Proc.devRef .tc main_v92)) shapeCasts_S64_S1x64 := by
    show StableHlo.after hostOps5 (W10 m ρ c) (Proc.devRef .tc main_v114) = _
    after_results_simp <;> rfl
  rw [h, (KeepVars.keep_v92_10_9 m ρ c).trans (bias_vec m ρ c)]
  obtain ⟨u, q, rfl⟩ : ∃ (u : Fin 1) (q : Fin 64), j = ix2 u q := ⟨j 0, j 1, eq_ix2 j⟩
  exact shapeCast_a_1a_apply _ _ u q
theorem scale_row (c : Dev nD) (j : S1x64.Idx) : W11 m ρ c (Proc.devRef .tc main_v115) j = val_main_v149 (F := Ideal) (m ((c : Thread nD τ).loc main_arg6)) (ix1 (n := 64) (j 1)) := by
  have h : W11 m ρ c (Proc.devRef .tc main_v115) = shapeCast S1x64 (W10 m ρ c (Proc.devRef .tc main_v94)) shapeCasts_S64_S1x64 := by
    show StableHlo.after hostOps5 (W10 m ρ c) (Proc.devRef .tc main_v115) = _
    after_results_simp <;> rfl
  rw [h, (KeepVars.keep_v94_10_9 m ρ c).trans (scale_vec m ρ c)]
  obtain ⟨u, q, rfl⟩ : ∃ (u : Fin 1) (q : Fin 64), j = ix2 u q := ⟨j 0, j 1, eq_ix2 j⟩
  exact shapeCast_a_1a_apply _ _ u q
theorem shift_row (c : Dev nD) (j : S1x64.Idx) : W11 m ρ c (Proc.devRef .tc main_v116) j = val_main_v167 (F := Ideal) (m ((c : Thread nD τ).loc main_arg7)) (ix1 (n := 64) (j 1)) := by
  have h : W11 m ρ c (Proc.devRef .tc main_v116) = shapeCast S1x64 (W10 m ρ c (Proc.devRef .tc main_v96)) shapeCasts_S64_S1x64 := by
    show StableHlo.after hostOps5 (W10 m ρ c) (Proc.devRef .tc main_v116) = _
    after_results_simp <;> rfl
  rw [h, (KeepVars.keep_v96_10_9 m ρ c).trans (shift_vec m ρ c)]
  obtain ⟨u, q, rfl⟩ : ∃ (u : Fin 1) (q : Fin 64), j = ix2 u q := ⟨j 0, j 1, eq_ix2 j⟩
  exact shapeCast_a_1a_apply _ _ u q
theorem mean_row (c : Dev nD) (j : S1x64.Idx) : W11 m ρ c (Proc.devRef .tc main_v117) j = val_main_v151 (F := Ideal) (m ((c : Thread nD τ).loc main_arg8)) (ix1 (n := 64) (j 1)) := by
  have h : W11 m ρ c (Proc.devRef .tc main_v117) = shapeCast S1x64 (W10 m ρ c (Proc.devRef .tc main_v98)) shapeCasts_S64_S1x64 := by
    show StableHlo.after hostOps5 (W10 m ρ c) (Proc.devRef .tc main_v117) = _
    after_results_simp <;> rfl
  rw [h, (KeepVars.keep_v98_10_9 m ρ c).trans (mean_vec m ρ c)]
  obtain ⟨u, q, rfl⟩ : ∃ (u : Fin 1) (q : Fin 64), j = ix2 u q := ⟨j 0, j 1, eq_ix2 j⟩
  exact shapeCast_a_1a_apply _ _ u q
theorem var_row (c : Dev nD) (j : S1x64.Idx) : W11 m ρ c (Proc.devRef .tc main_v118) j = val_main_v159 (F := Ideal) (m ((c : Thread nD τ).loc main_arg9)) (ix1 (n := 64) (j 1)) := by
  have h : W11 m ρ c (Proc.devRef .tc main_v118) = shapeCast S1x64 (W10 m ρ c (Proc.devRef .tc main_v100)) shapeCasts_S64_S1x64 := by
    show StableHlo.after hostOps5 (W10 m ρ c) (Proc.devRef .tc main_v118) = _
    after_results_simp <;> rfl
  rw [h, (KeepVars.keep_v100_10_9 m ρ c).trans (var_vec m ρ c)]
  obtain ⟨u, q, rfl⟩ : ∃ (u : Fin 1) (q : Fin 64), j = ix2 u q := ⟨j 0, j 1, eq_ix2 j⟩
  exact shapeCast_a_1a_apply _ _ u q

/-! ## The reference's broadcasts, read at an index -/

theorem ref_bias (c : Dev nD) (i : S100000x64.Idx) : val_main_v146 (F := Ideal) (m ((c : Thread nD τ).loc main_arg5)) i = val_main_v126 (F := Ideal) (m ((c : Thread nD τ).loc main_arg5)) (ix1 (n := 64) (i 1)) := by
  rw [val_main_v146_apply, val_main_v145_apply]
  exact congrArg _ (funext fun a => match a with | ⟨0, _⟩ => rfl)
theorem ref_scale (c : Dev nD) (i : S100000x64.Idx) : val_main_v156 (F := Ideal) (m ((c : Thread nD τ).loc main_arg6)) i = val_main_v149 (F := Ideal) (m ((c : Thread nD τ).loc main_arg6)) (ix1 (n := 64) (i 1)) := by
  rw [val_main_v156_apply, val_main_v155_apply]
  exact congrArg _ (funext fun a => match a with | ⟨0, _⟩ => rfl)
theorem ref_mean (c : Dev nD) (i : S100000x64.Idx) : val_main_v153 (F := Ideal) (m ((c : Thread nD τ).loc main_arg8)) i = val_main_v151 (F := Ideal) (m ((c : Thread nD τ).loc main_arg8)) (ix1 (n := 64) (i 1)) := by
  rw [val_main_v153_apply, val_main_v152_apply]
  exact congrArg _ (funext fun a => match a with | ⟨0, _⟩ => rfl)
theorem ref_shift (c : Dev nD) (i : S100000x64.Idx) : val_main_v169 (F := Ideal) (m ((c : Thread nD τ).loc main_arg7)) i = val_main_v167 (F := Ideal) (m ((c : Thread nD τ).loc main_arg7)) (ix1 (n := 64) (i 1)) := by
  rw [val_main_v169_apply, val_main_v168_apply]
  exact congrArg _ (funext fun a => match a with | ⟨0, _⟩ => rfl)
theorem ref_rstd (c : Dev nD) (i : S100000x64.Idx) : val_main_v164 (F := Ideal) (m ((c : Thread nD τ).loc main_arg9)) i = Ideal.rsqrt (val_main_v159 (F := Ideal) (m ((c : Thread nD τ).loc main_arg9)) (ix1 (n := 64) (i 1)) + Ideal.ofBits .f32 0x3727C5AC#32) := by
  rw [val_main_v164_apply, val_main_v163_apply, val_main_v162_apply, val_main_v161_apply, val_main_v160_apply, val_main_cst_16_apply]
  have e : idx_main_v163 (idx_main_v164 i) = ix1 (n := 64) (i 1) := funext fun a => match a with | ⟨0, _⟩ => rfl
  rw [e]
  rfl
theorem ref_self (c : Dev nD) (i : S100000x64.Idx) : val_main_v142 (F := Ideal) (m ((c : Thread nD τ).loc main_arg1)) i = val_main_v141 (F := Ideal) (m ((c : Thread nD τ).loc main_arg1)) (ix2 (n0 := 100000) (i 0) (0 : Fin 1)) := by
  rw [val_main_v142_apply]
  exact congrArg _ (funext fun a => match a with | ⟨0, _⟩ => rfl | ⟨1, _⟩ => rfl)

/-! ## The fused stage -/

theorem act (c : Dev nD) : W12 m ρ c (Proc.devRef .tc main_v119) = val_main_v171 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W12_arr m ρ c 8).trans (Fuse5.value (V11 m ρ) c)).trans ?_
  have e0 : V11 m ρ c main_v113 = val_main_v140 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := agg m ρ c
  have e1 : V11 m ρ c main_v101 = val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (KeepVars.keep_v101_11_10 m ρ c).trans (lin m ρ c)
  have e2 : V11 m ρ c main_v28 = val_main_v141 (F := Ideal) (m ((c : Thread nD τ).loc main_arg1)) := self_at m ρ c
  rw [e0, e1, e2]
  funext i
  unfold Fuse5.arr
  have rb := bias_row m ρ c; have rg := scale_row m ρ c; have rt := shift_row m ρ c; have rm := mean_row m ρ c; have rv := var_row m ρ c
  rw [show V11 m ρ c main_v114 (ix2 (0 : Fin 1) (n1 := 64) (i 1)) = _ from rb _, show V11 m ρ c main_v115 (ix2 (0 : Fin 1) (n1 := 64) (i 1)) = _ from rg _,
    show V11 m ρ c main_v116 (ix2 (0 : Fin 1) (n1 := 64) (i 1)) = _ from rt _, show V11 m ρ c main_v117 (ix2 (0 : Fin 1) (n1 := 64) (i 1)) = _ from rm _,
    show V11 m ρ c main_v118 (ix2 (0 : Fin 1) (n1 := 64) (i 1)) = _ from rv _]
  rw [val_main_v171_apply, val_main_v170_apply, val_main_v165_apply, val_main_v157_apply, val_main_v154_apply, val_main_v147_apply, val_main_v144_apply, val_main_v143_apply,
    ref_bias m c, ref_scale m c, ref_mean m c, ref_shift m c, ref_rstd m c, ref_self m c, val_main_call2_v0_apply, val_main_call2_cst_apply]
  rfl

end Cert.KernelIdeal.Layer3

end
-- ==== Proof.Head.lean ====
/-
  The pooling and the classifier head of the idealized kernel against the reference's stages. After the third layer a
  stretch of host operations pools the node features per graph (a scatter-add over the batch vector, divided by the
  clamped node counts: the reference's own operations on an equal operand) and reshapes the two bias vectors into rows;
  the last region then computes out = max (pooled · w1 + b1, 0) · w2 + b2 in one point. Both matrix products are read
  as sums over the contracted axis on both sides, and the reference's broadcast bias vectors read the entries the
  kernel's staged rows hold.
-/
import proofs.«129519_j25572235280972_1_alg».proof.Proof.Gen.KernelIdeal.Frame
import Idealize.ShloMosaic.PureOps.Ideal
import Idealize.ShloMosaic.Lib.StableHlo.Run
import proofs.«129519_j25572235280972_1_alg».proof.Proof.Gen.ReferenceIdeal.Read
import proofs.«129519_j25572235280972_1_alg».proof.Proof.Mlp6
import proofs.«129519_j25572235280972_1_alg».proof.Proof.KeepArgsB
import proofs.«129519_j25572235280972_1_alg».proof.Proof.Layer3
import Idealize.ShloMosaic.Lib.ValueIdx
import Idealize.ShloMosaic.Lib.ValueLayout
import Idealize.ShloMosaic.Lib.Pipeline.Value

set_option maxRecDepth 16384

noncomputable section

namespace Cert.KernelIdeal.Head

open Idealize.ShloMosaic Idealize.ShloMosaic.TcCoe Idealize.SL.Sem Idealize.ShloMosaic.StableHlo Idealize.ShloMosaic.ValueIdx
open Cert.KernelIdeal Cert.KernelIdeal.Gen Cert.ReferenceIdeal.Read

variable (m : (ℓ : Loc nD τ sig) → Buf (Elt Ideal) ℓ) (ρ : Dev nD → PrngReg)

/-- The pooled features: per-graph sums of the third layer's output divided by the clamped node counts. -/
theorem pooled (c : Dev nD) : W13 m ρ c (Proc.devRef .tc main_v131) = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps6 (W12 m ρ c) (Proc.devRef .tc main_v131) = _
  after_results_simp
  rw [Layer3.act m ρ c, KeepArgsB.arg2_at_12 m ρ c]
  rfl

/-- The first bias as a staged row. -/
theorem b1_row (c : Dev nD) (j : S1x64.Idx) : W13 m ρ c (Proc.devRef .tc main_v132) j = m ((c : Thread nD τ).loc main_arg11) (ix1 (n := 64) (j 1)) := by
  have h : W13 m ρ c (Proc.devRef .tc main_v132) = shapeCast S1x64 (W12 m ρ c (Proc.devRef .tc main_arg11)) shapeCasts_S64_S1x64 := by
    show StableHlo.after hostOps6 (W12 m ρ c) (Proc.devRef .tc main_v132) = _
    after_results_simp <;> rfl
  rw [h, KeepArgsB.arg11_at_12 m ρ c]
  obtain ⟨u, q, rfl⟩ : ∃ (u : Fin 1) (q : Fin 64), j = ix2 u q := ⟨j 0, j 1, eq_ix2 j⟩
  exact shapeCast_a_1a_apply _ _ u q

/-- The second bias as a staged row. -/
theorem b2_row (c : Dev nD) (j : S1x10.Idx) : W13 m ρ c (Proc.devRef .tc main_v133) j = m ((c : Thread nD τ).loc main_arg13) (ix1 (n := 10) (j 1)) := by
  have h : W13 m ρ c (Proc.devRef .tc main_v133) = shapeCast S1x10 (W12 m ρ c (Proc.devRef .tc main_arg13)) shapeCasts_S10_S1x10 := by
    show StableHlo.after hostOps6 (W12 m ρ c) (Proc.devRef .tc main_v133) = _
    after_results_simp <;> rfl
  rw [h, KeepArgsB.arg13_at_12 m ρ c]
  obtain ⟨u, q, rfl⟩ : ∃ (u : Fin 1) (q : Fin 10), j = ix2 u q := ⟨j 0, j 1, eq_ix2 j⟩
  exact shapeCast_a_1a_apply _ _ u q

/-- The reference's broadcast of the first bias, read at an index. -/
theorem ref_b1 (c : Dev nD) (i : S512x64.Idx) : val_main_v186 (F := Ideal) (m ((c : Thread nD τ).loc main_arg11)) i = m ((c : Thread nD τ).loc main_arg11) (ix1 (n := 64) (i 1)) := by
  rw [val_main_v186_apply, val_main_v185_apply]
  exact congrArg _ (funext fun a => match a with | ⟨0, _⟩ => rfl)

/-- The reference's broadcast of the second bias, read at an index. -/
theorem ref_b2 (c : Dev nD) (i : S512x10.Idx) : val_main_v191 (F := Ideal) (m ((c : Thread nD τ).loc main_arg13)) i = m ((c : Thread nD τ).loc main_arg13) (ix1 (n := 10) (i 1)) := by
  rw [val_main_v191_apply, val_main_v190_apply]
  exact congrArg _ (funext fun a => match a with | ⟨0, _⟩ => rfl)

/-- The kernel's result array is the reference's result. -/
theorem result (c : Dev nD) : W14 m ρ c (Proc.devRef .tc main_v134) = val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W14_arr m ρ c 5).trans (Mlp6.value (V13 m ρ) c)).trans ?_
  have e0 : V13 m ρ c main_v131 = val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := pooled m ρ c
  have e1 : V13 m ρ c main_arg10 = m ((c : Thread nD τ).loc main_arg10) := KeepArgsB.arg10_at_13 m ρ c
  have e3 : V13 m ρ c main_arg12 = m ((c : Thread nD τ).loc main_arg12) := KeepArgsB.arg12_at_13 m ρ c
  rw [e0, e1, e3]
  funext i
  unfold Mlp6.arr
  rw [val_main_v192_apply, val_main_v189_apply, ref_b2 m c, show V13 m ρ c main_v133 (ix2 (0 : Fin 1) (n1 := 10) (i 1)) = _ from b2_row m ρ c _]
  refine congrArg₂ (fun a b : EReal => a + b) (Finset.sum_congr rfl fun j _ => congrArg₂ (fun a b : EReal => a * b) ?_ (congrArg _ ?_)) rfl
  · rw [val_main_v188_apply, val_main_v187_apply, val_main_v184_apply, ref_b1 m c, val_main_call3_v0_apply, val_main_call3_cst_apply]
    unfold Mlp6.hidden
    rw [show V13 m ρ c main_v132 (ix2 (0 : Fin 1) j) = _ from b1_row m ρ c _]
    refine congrArg₂ max (congrArg₂ (fun a b : EReal => a + b) (Finset.sum_congr rfl fun k _ => congrArg₂ (fun a b : EReal => a * b) (congrArg _ ?_) (congrArg _ ?_)) rfl) rfl <;>
      (funext a; match a with | ⟨0, _⟩ => rfl | ⟨1, _⟩ => rfl)
  · funext a; match a with | ⟨0, _⟩ => rfl | ⟨1, _⟩ => rfl

end Cert.KernelIdeal.Head

end
-- ==== Proof.Valued.lean ====
/-
  The idealized kernel's run with its result named: every weakly fair execution of @main terminates without a fault,
  the result array holds the reference's result term of the launch contents of the arguments, and the arguments end
  as launched. The launch of the seven regions among the host stretches is the one the frame is proved by; the final
  thread state holds every unscoped buffer at the last boundary's contents, so the result buffer is read off it like
  the arguments are, and the last boundary's contents at the result buffer are the reference's (the head's value).
-/
import proofs.«129519_j25572235280972_1_alg».proof.Proof.Gen.KernelIdeal.Frame
import proofs.«129519_j25572235280972_1_alg».proof.Proof.Head

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.ReferenceIdeal.Read

local notation "𝕄" => MT nD τ sig Unit (Elt Ideal) ℕ (UR sig nD τ) ℕ

variable (m : (ℓ : Loc nD τ sig) → Buf (Elt Ideal) ℓ) (ρ : Dev nD → PrngReg)

/-- The kernel's result as a function of the launch memory: the reference's result term of the argument arrays. -/
def result (c : Dev nD) : Buf (Elt Ideal) ((c.tc : Thread nD τ).loc main_v134) :=
  val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

set_option backward.isDefEq.respectTransparency.types false in
theorem run : θ_run defs (onTc (τ := τ) (main (F := Ideal))) ⟨m, fun _ => 0, ρ⟩ (fun r => ∀ c : Dev nD,
      r.2.mem ((c.tc : Thread nD τ).loc main_v134) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v134 (by decide))).trans (Head.result m ρ c),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KernelIdeal.Valued

end
-- ==== Proof.lean ====
/-
  The certificate's proof. The kernel is a three-layer graph convolution network with a mean pool and a two-layer
  classifier head: seven regions (three row-tiled matrix products, three fused elementwise stages, the head) among
  stretches of host operations (degree normalisation, edge gather and scatter-add, pooling). At the extended reals every
  region's output array is one whole-array function of its input arrays (the casts to bf16 vanish, a matrix unit
  started from zero is the plain sum over the contracted axis), the host operations between the regions are the
  reference's own, and the reference computes the same functions by its host operations; so, stage by stage, the
  contents at each boundary of the kernel's run are the reference's stages of the argument arrays, and the result
  array is the reference's result. No finiteness is used: the two sides apply the same operations in the same order
  and association, and only the reading of a product as a sum over the contracted axis and the reading of a broadcast
  at an index separate them.
  The three frames are the generated ones (the reference's is its generated run with the result dropped); the ideal
  pass rewrote nothing, so the preservation claim is trivial.
-/
import proofs.«129519_j25572235280972_1_alg».proof.Defs
import proofs.«129519_j25572235280972_1_alg».proof.Proof.Gen.Kernel
import proofs.«129519_j25572235280972_1_alg».proof.Proof.Gen.Kernel.Skeleton
import proofs.«129519_j25572235280972_1_alg».proof.Proof.Gen.Kernel.Launch
import proofs.«129519_j25572235280972_1_alg».proof.Proof.Gen.Kernel.Points
import proofs.«129519_j25572235280972_1_alg».proof.Proof.Gen.Kernel.Frame
import proofs.«129519_j25572235280972_1_alg».proof.Proof.Gen.KernelIdeal
import proofs.«129519_j25572235280972_1_alg».proof.Proof.Gen.KernelIdeal.Skeleton
import proofs.«129519_j25572235280972_1_alg».proof.Proof.Gen.KernelIdeal.Launch
import proofs.«129519_j25572235280972_1_alg».proof.Proof.Gen.KernelIdeal.Points
import proofs.«129519_j25572235280972_1_alg».proof.Proof.Gen.KernelIdeal.Frame
import proofs.«129519_j25572235280972_1_alg».proof.Proof.Gen.ReferenceIdeal
import proofs.«129519_j25572235280972_1_alg».proof.Proof.Gen.Pre_finite_inputs
import proofs.«129519_j25572235280972_1_alg».proof.Proof.Gen.ReferenceIdeal.Run
import proofs.«129519_j25572235280972_1_alg».proof.Proof.Gen.ReferenceIdeal.Read
import proofs.«129519_j25572235280972_1_alg».proof.Proof.Valued
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the reference's result term of the
    arguments: the kernel by its valued run, the reference by its generated run. -/
theorem algebraic : Cert.algebraic_KernelIdeal_ReferenceIdeal := by
  intro m ρ m' ρ' _ hagree
  refine ⟨fun c => Cert.KernelIdeal.Valued.result m c, Cert.KernelIdeal.Valued.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v192_eq]
  obtain ⟨a0, a1, a2, a3, a4, a5, a6, a7, a8, a9, a10, a11, a12, a13⟩ := hagree c
  rw [a0, a1, a2, a3, a4, a5, a6, a7, a8, a9, a10, a11, a12, a13]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
